-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x20x60 : Shape := ⟨3, ![131072, 20, 60]⟩
abbrev S40x30 : Shape := ⟨2, ![40, 30]⟩
abbrev S_ : Shape := ⟨0, ![]⟩

class Facts : Prop where
  bcast_S_S131072x20x60 : S_.BroadcastsInDim S131072x20x60 (![] : Fin 0 → Fin S131072x20x60.rank)
  reducesTo_S131072x20x60_S_d0_1_2 : S131072x20x60.ReducesTo [0, 1, 2] S_
  h_S_ : 0 < S_.numel
  bcast_S_S40x30 : S_.BroadcastsInDim S40x30 (![] : Fin 0 → Fin S40x30.rank)
  reducesTo_S40x30_S_d0_1 : S40x30.ReducesTo [0, 1] S_

variable [Facts]

def fn {F : FTy → Type} [FloatOps F] (main_arg0 : FVec F S131072x20x60 .f32) (main_arg1 : FVec F S40x30 .f32) (main_arg2 : FVec F S40x30 .f32) : IVec S_ 1 :=
  let main_v0 : FVec F S131072x20x60 .f32 := Host.absf main_arg0
  let main_cst : FVec F S_ .f32 := constant S_ .f32 0x7F800000#32
  let main_v1 : FVec F S131072x20x60 .f32 := broadcastInDim S131072x20x60 ![] bcast_S_S131072x20x60 main_cst
  let main_v2 : IVec S131072x20x60 1 := cmpf .olt main_v0 main_v1
  let main_c : IVec S_ 1 := constantI S_ 1 1#1
  let main_v3 : IVec S_ 1 := (fun x v => Host.reduce IntOp.andi x v reducesTo_S131072x20x60_S_d0_1_2 h_S_) main_v2 main_c
  let main_v4 : FVec F S40x30 .f32 := Host.absf main_arg1
  let main_cst_0 : FVec F S_ .f32 := constant S_ .f32 0x7F800000#32
  let main_v5 : FVec F S40x30 .f32 := broadcastInDim S40x30 ![] bcast_S_S40x30 main_cst_0
  let main_v6 : IVec S40x30 1 := cmpf .olt main_v4 main_v5
  let main_c_1 : IVec S_ 1 := constantI S_ 1 1#1
  let main_v7 : IVec S_ 1 := (fun x v => Host.reduce IntOp.andi x v reducesTo_S40x30_S_d0_1 h_S_) main_v6 main_c_1
  let main_v8 : IVec S_ 1 := andi main_v3 main_v7
  let main_v9 : FVec F S40x30 .f32 := Host.absf main_arg2
  let main_cst_2 : FVec F S_ .f32 := constant S_ .f32 0x7F800000#32
  let main_v10 : FVec F S40x30 .f32 := broadcastInDim S40x30 ![] bcast_S_S40x30 main_cst_2
  let main_v11 : IVec S40x30 1 := cmpf .olt main_v9 main_v10
  let main_c_3 : IVec S_ 1 := constantI S_ 1 1#1
  let main_v12 : IVec S_ 1 := (fun x v => Host.reduce IntOp.andi x v reducesTo_S40x30_S_d0_1 h_S_) main_v11 main_c_3
  let main_v13 : IVec S_ 1 := andi main_v8 main_v12
  main_v13
-- ==== Kernel.lean ====
abbrev S131072x20x60 : Shape := ⟨3, ![131072, 20, 60]⟩
abbrev S40x30 : Shape := ⟨2, ![40, 30]⟩
abbrev S80x30 : Shape := ⟨2, ![80, 30]⟩
abbrev S1024x20x60 : Shape := ⟨3, ![1024, 20, 60]⟩
abbrev S1024x20x20 : Shape := ⟨3, ![1024, 20, 20]⟩
abbrev S1024x20x40 : Shape := ⟨3, ![1024, 20, 40]⟩
abbrev S1024x20x10 : Shape := ⟨3, ![1024, 20, 10]⟩
abbrev S20x20 : Shape := ⟨2, ![20, 20]⟩
abbrev S1x20x20 : Shape := ⟨3, ![1, 20, 20]⟩
abbrev S1024x20 : Shape := ⟨2, ![1024, 20]⟩
abbrev S1024x20x1 : Shape := ⟨3, ![1024, 20, 1]⟩
abbrev S1024x1 : Shape := ⟨2, ![1024, 1]⟩
abbrev S1024x1x1 : Shape := ⟨3, ![1024, 1, 1]⟩
abbrev S1024x1x40 : Shape := ⟨3, ![1024, 1, 40]⟩
abbrev S1024x20x80 : Shape := ⟨3, ![1024, 20, 80]⟩
abbrev S20480x80 : Shape := ⟨2, ![20480, 80]⟩
abbrev S20480x30 : Shape := ⟨2, ![20480, 30]⟩
abbrev S1024x20x30 : Shape := ⟨3, ![1024, 20, 30]⟩

abbrev nBuf : Space → Nat
  | .hbm => 5
  | .vmem => 5
  | .smem => 0
  | _ => 0

abbrev bufTy : (tb : Table) → Fin (tcTables nBuf tb) → BufTy
  | .hbm, ⟨0, _⟩ => ⟨S131072x20x60, .f32⟩
  | .hbm, ⟨1, _⟩ => ⟨S40x30, .f32⟩
  | .hbm, ⟨2, _⟩ => ⟨S40x30, .f32⟩
  | .hbm, ⟨3, _⟩ => ⟨S80x30, .f32⟩
  | .hbm, ⟨4, _⟩ => ⟨S131072x20x60, .f32⟩
  | .local _ .vmem, ⟨0, _⟩ => ⟨S1024x20x60, .f32⟩
  | .local _ .vmem, ⟨1, _⟩ => ⟨S1024x20x60, .f32⟩
  | .local _ .vmem, ⟨2, _⟩ => ⟨S80x30, .f32⟩
  | .local _ .vmem, ⟨3, _⟩ => ⟨S1024x20x60, .f32⟩
  | .local _ .vmem, ⟨4, _⟩ => ⟨S1024x20x60, .f32⟩
  | _, _ => ⟨S131072x20x60, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x20x60 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x20x60 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S40x30_S40x30_S80x30_d0 : Shape.Concatenates [S40x30, S40x30] S80x30 0
  inb_S1024x20x60_S1024x20x60_0_0_0 : ∀ a, (![0, 0, 0] : Fin 3 → Nat) a + S1024x20x60.size a ≤ S1024x20x60.size a
  h_S1024x20x60 : 0 < S1024x20x60.numel
  slices_S1024x20x60_o0_0_0_S1024x20x20 : S1024x20x60.Slices ![0, 0, 0] S1024x20x20
  slices_S1024x20x60_o0_0_20_S1024x20x40 : S1024x20x60.Slices ![0, 0, 20] S1024x20x40
  slices_S1024x20x40_o0_0_0_S1024x20x10 : S1024x20x40.Slices ![0, 0, 0] S1024x20x10
  iota_S20x20_d0_w32 : S20x20.Iotas .tc 32 [0]
  iota_S20x20_d1_w32 : S20x20.Iotas .tc 32 [1]
  natLt_1_32 : 1 < 32
  shapeCasts_S20x20_S1x20x20 : S20x20.ShapeCasts S1x20x20
  broadcasts_S1x20x20_S1024x20x20 : S1x20x20.Broadcasts S1024x20x20
  reduces_S1024x20x20_S1024x20 : S1024x20x20.Reduces [2] S1024x20
  shapeCasts_S1024x20_S1024x20x1 : S1024x20.ShapeCasts S1024x20x1
  reduces_S1024x20x1_S1024x1 : S1024x20x1.Reduces [1] S1024x1
  shapeCasts_S1024x1_S1024x1x1 : S1024x1.ShapeCasts S1024x1x1
  inb_S80x30_S80x30_0_0 : ∀ a, (![0, 0] : Fin 2 → Nat) a + S80x30.size a ≤ S80x30.size a
  h_S80x30 : 0 < S80x30.numel
  shapeCasts_S80x30_S80x30 : S80x30.ShapeCasts S80x30
  slices_S1024x20x20_o0_0_0_S1024x20x1 : S1024x20x20.Slices ![0, 0, 0] S1024x20x1
  slices_S1024x20x40_o0_0_0_S1024x1x40 : S1024x20x40.Slices ![0, 0, 0] S1024x1x40
  broadcasts_S1024x20x1_S1024x20x40 : S1024x20x1.Broadcasts S1024x20x40
  broadcasts_S1024x1x40_S1024x20x40 : S1024x1x40.Broadcasts S1024x20x40
  slices_S1024x20x20_o0_0_1_S1024x20x1 : S1024x20x20.Slices ![0, 0, 1] S1024x20x1
  slices_S1024x20x40_o0_1_0_S1024x1x40 : S1024x20x40.Slices ![0, 1, 0] S1024x1x40
  slices_S1024x20x20_o0_0_2_S1024x20x1 : S1024x20x20.Slices ![0, 0, 2] S1024x20x1
  slices_S1024x20x40_o0_2_0_S1024x1x40 : S1024x20x40.Slices ![0, 2, 0] S1024x1x40
  slices_S1024x20x20_o0_0_3_S1024x20x1 : S1024x20x20.Slices ![0, 0, 3] S1024x20x1
  slices_S1024x20x40_o0_3_0_S1024x1x40 : S1024x20x40.Slices ![0, 3, 0] S1024x1x40
  slices_S1024x20x20_o0_0_4_S1024x20x1 : S1024x20x20.Slices ![0, 0, 4] S1024x20x1
  slices_S1024x20x40_o0_4_0_S1024x1x40 : S1024x20x40.Slices ![0, 4, 0] S1024x1x40
  slices_S1024x20x20_o0_0_5_S1024x20x1 : S1024x20x20.Slices ![0, 0, 5] S1024x20x1
  slices_S1024x20x40_o0_5_0_S1024x1x40 : S1024x20x40.Slices ![0, 5, 0] S1024x1x40
  slices_S1024x20x20_o0_0_6_S1024x20x1 : S1024x20x20.Slices ![0, 0, 6] S1024x20x1
  slices_S1024x20x40_o0_6_0_S1024x1x40 : S1024x20x40.Slices ![0, 6, 0] S1024x1x40
  slices_S1024x20x20_o0_0_7_S1024x20x1 : S1024x20x20.Slices ![0, 0, 7] S1024x20x1
  slices_S1024x20x40_o0_7_0_S1024x1x40 : S1024x20x40.Slices ![0, 7, 0] S1024x1x40
  slices_S1024x20x20_o0_0_8_S1024x20x1 : S1024x20x20.Slices ![0, 0, 8] S1024x20x1
  slices_S1024x20x40_o0_8_0_S1024x1x40 : S1024x20x40.Slices ![0, 8, 0] S1024x1x40
  slices_S1024x20x20_o0_0_9_S1024x20x1 : S1024x20x20.Slices ![0, 0, 9] S1024x20x1
  slices_S1024x20x40_o0_9_0_S1024x1x40 : S1024x20x40.Slices ![0, 9, 0] S1024x1x40
  slices_S1024x20x20_o0_0_10_S1024x20x1 : S1024x20x20.Slices ![0, 0, 10] S1024x20x1
  slices_S1024x20x40_o0_10_0_S1024x1x40 : S1024x20x40.Slices ![0, 10, 0] S1024x1x40
  slices_S1024x20x20_o0_0_11_S1024x20x1 : S1024x20x20.Slices ![0, 0, 11] S1024x20x1
  slices_S1024x20x40_o0_11_0_S1024x1x40 : S1024x20x40.Slices ![0, 11, 0] S1024x1x40
  slices_S1024x20x20_o0_0_12_S1024x20x1 : S1024x20x20.Slices ![0, 0, 12] S1024x20x1
  slices_S1024x20x40_o0_12_0_S1024x1x40 : S1024x20x40.Slices ![0, 12, 0] S1024x1x40
  slices_S1024x20x20_o0_0_13_S1024x20x1 : S1024x20x20.Slices ![0, 0, 13] S1024x20x1
  slices_S1024x20x40_o0_13_0_S1024x1x40 : S1024x20x40.Slices ![0, 13, 0] S1024x1x40
  slices_S1024x20x20_o0_0_14_S1024x20x1 : S1024x20x20.Slices ![0, 0, 14] S1024x20x1
  slices_S1024x20x40_o0_14_0_S1024x1x40 : S1024x20x40.Slices ![0, 14, 0] S1024x1x40
  slices_S1024x20x20_o0_0_15_S1024x20x1 : S1024x20x20.Slices ![0, 0, 15] S1024x20x1
  slices_S1024x20x40_o0_15_0_S1024x1x40 : S1024x20x40.Slices ![0, 15, 0] S1024x1x40
  slices_S1024x20x20_o0_0_16_S1024x20x1 : S1024x20x20.Slices ![0, 0, 16] S1024x20x1
  slices_S1024x20x40_o0_16_0_S1024x1x40 : S1024x20x40.Slices ![0, 16, 0] S1024x1x40
  slices_S1024x20x20_o0_0_17_S1024x20x1 : S1024x20x20.Slices ![0, 0, 17] S1024x20x1
  slices_S1024x20x40_o0_17_0_S1024x1x40 : S1024x20x40.Slices ![0, 17, 0] S1024x1x40
  slices_S1024x20x20_o0_0_18_S1024x20x1 : S1024x20x20.Slices ![0, 0, 18] S1024x20x1
  slices_S1024x20x40_o0_18_0_S1024x1x40 : S1024x20x40.Slices ![0, 18, 0] S1024x1x40
  slices_S1024x20x20_o0_0_19_S1024x20x1 : S1024x20x20.Slices ![0, 0, 19] S1024x20x1
  slices_S1024x20x40_o0_19_0_S1024x1x40 : S1024x20x40.Slices ![0, 19, 0] S1024x1x40
  concatenates_S1024x20x40_S1024x20x40_S1024x20x80_d2 : Shape.Concatenates [S1024x20x40, S1024x20x40] S1024x20x80 2
  shapeCasts_S1024x20x80_S20480x80 : S1024x20x80.ShapeCasts S20480x80
  shapeCasts_S20480x30_S1024x20x30 : S20480x30.ShapeCasts S1024x20x30
  broadcasts_S1024x1x1_S1024x20x30 : S1024x1x1.Broadcasts S1024x20x30
  concatenates_S1024x20x10_S1024x20x30_S1024x20x40_d2 : Shape.Concatenates [S1024x20x10, S1024x20x30] S1024x20x40 2
  inb_S1024x20x60_S1024x20x20_0_0_0 : ∀ a, (![0, 0, 0] : Fin 3 → Nat) a + S1024x20x20.size a ≤ S1024x20x60.size a
  h_S1024x20x20 : 0 < S1024x20x20.numel
  inb_S1024x20x60_S1024x20x40_0_0_20 : ∀ a, (![0, 0, 20] : Fin 3 → Nat) a + S1024x20x40.size a ≤ S1024x20x60.size a
  h_S1024x20x40 : 0 < S1024x20x40.numel
  dot_S20480x80_S80x30_S20480x30_1_0_0_1_n_n_wf : DotDims.WF S20480x80 S80x30 S20480x30 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x20x60.size a ≤ S131072x20x60.size a
  hwx0_0 : ∀ i : grid0.Coords, EltTy.bits .f32 = 32 ∨ (Rect.block (s := S131072x20x60) S1024x20x60.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x30.size a ≤ S80x30.size a
  hwx0_1 : ∀ i : grid0.Coords, EltTy.bits .f32 = 32 ∨ (Rect.block (s := S80x30) S80x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x20x60.size a ≤ S131072x20x60.size a
  hwx0_2 : ∀ i : grid0.Coords, EltTy.bits .f32 = 32 ∨ (Rect.block (s := S131072x20x60) S1024x20x60.size (cc0_transform_2 i) (hinb0_2 i)).WholeWords (EltTy.packing .f32)

variable [Facts₀]

def dot_S20480x80_S80x30_S20480x30_1_0_0_1_n_n : DotDims S20480x80 S80x30 S20480x30 where
  lhsContracting := [1]
  rhsContracting := [0]
  lhsNonContracting := [0]
  rhsNonContracting := [1]
  lhsBatch := []
  rhsBatch := []
  wf := dot_S20480x80_S80x30_S20480x30_1_0_0_1_n_n_wf

abbrev win0_0 : Pipeline.Window sig grid0 :=
  Pipeline.Window.ofSpec (Memref.whole main_arg0) S1024x20x60.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S80x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x20x60.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x20x60 : Shape := ⟨3, ![131072, 20, 60]⟩
abbrev S40x30 : Shape := ⟨2, ![40, 30]⟩
abbrev S131072x20x20 : Shape := ⟨3, ![131072, 20, 20]⟩
abbrev S131072x20x40 : Shape := ⟨3, ![131072, 20, 40]⟩
abbrev S131072x20x10 : Shape := ⟨3, ![131072, 20, 10]⟩
abbrev S20x20 : Shape := ⟨2, ![20, 20]⟩
abbrev S_ : Shape := ⟨0, ![]⟩
abbrev S1x20x20 : Shape := ⟨3, ![1, 20, 20]⟩
abbrev S131072 : Shape := ⟨1, ![131072]⟩
abbrev S131072x1x1 : Shape := ⟨3, ![131072, 1, 1]⟩
abbrev S131072x20x30 : Shape := ⟨3, ![131072, 20, 30]⟩

abbrev nBuf : Space → Nat
  | .hbm => 47
  | .vmem => 0
  | .smem => 0
  | _ => 0

abbrev bufTy : (tb : Table) → Fin (tcTables nBuf tb) → BufTy
  | .hbm, ⟨0, _⟩ => ⟨S131072x20x60, .f32⟩
  | .hbm, ⟨1, _⟩ => ⟨S40x30, .f32⟩
  | .hbm, ⟨2, _⟩ => ⟨S40x30, .f32⟩
  | .hbm, ⟨3, _⟩ => ⟨S131072x20x20, .f32⟩
  | .hbm, ⟨4, _⟩ => ⟨S131072x20x40, .f32⟩
  | .hbm, ⟨5, _⟩ => ⟨S131072x20x10, .f32⟩
  | .hbm, ⟨6, _⟩ => ⟨S20x20, .i32⟩
  | .hbm, ⟨7, _⟩ => ⟨S20x20, .i32⟩
  | .hbm, ⟨8, _⟩ => ⟨S_, .i32⟩
  | .hbm, ⟨9, _⟩ => ⟨S20x20, .i32⟩
  | .hbm, ⟨10, _⟩ => ⟨S20x20, .i32⟩
  | .hbm, ⟨11, _⟩ => ⟨S20x20, .i1⟩
  | .hbm, ⟨12, _⟩ => ⟨S20x20, .f32⟩
  | .hbm, ⟨13, _⟩ => ⟨S_, .f32⟩
  | .hbm, ⟨14, _⟩ => ⟨S20x20, .f32⟩
  | .hbm, ⟨15, _⟩ => ⟨S20x20, .f32⟩
  | .hbm, ⟨16, _⟩ => ⟨S1x20x20, .f32⟩
  | .hbm, ⟨17, _⟩ => ⟨S131072x20x20, .f32⟩
  | .hbm, ⟨18, _⟩ => ⟨S131072x20x20, .f32⟩
  | .hbm, ⟨19, _⟩ => ⟨S20x20, .i32⟩
  | .hbm, ⟨20, _⟩ => ⟨S20x20, .i32⟩
  | .hbm, ⟨21, _⟩ => ⟨S_, .i32⟩
  | .hbm, ⟨22, _⟩ => ⟨S20x20, .i32⟩
  | .hbm, ⟨23, _⟩ => ⟨S20x20, .i32⟩
  | .hbm, ⟨24, _⟩ => ⟨S20x20, .i1⟩
  | .hbm, ⟨25, _⟩ => ⟨S_, .f32⟩
  | .hbm, ⟨26, _⟩ => ⟨S131072x20x20, .f32⟩
  | .hbm, ⟨27, _⟩ => ⟨S131072x20x20, .i1⟩
  | .hbm, ⟨28, _⟩ => ⟨S131072x20x20, .f32⟩
  | .hbm, ⟨29, _⟩ => ⟨S_, .f32⟩
  | .hbm, ⟨30, _⟩ => ⟨S131072, .f32⟩
  | .hbm, ⟨31, _⟩ => ⟨S131072x1x1, .f32⟩
  | .hbm, ⟨32, _⟩ => ⟨S131072x20x40, .f32⟩
  | .hbm, ⟨33, _⟩ => ⟨S131072x20x30, .f32⟩
  | .hbm, ⟨34, _⟩ => ⟨S131072x20x30, .f32⟩
  | .hbm, ⟨35, _⟩ => ⟨S131072x20x30, .f32⟩
  | .hbm, ⟨36, _⟩ => ⟨S131072x20x30, .f32⟩
  | .hbm, ⟨37, _⟩ => ⟨S131072x20x30, .f32⟩
  | .hbm, ⟨38, _⟩ => ⟨S131072x20x40, .f32⟩
  | .hbm, ⟨39, _⟩ => ⟨S131072x20x40, .f32⟩
  | .hbm, ⟨40, _⟩ => ⟨S131072x20x30, .f32⟩
  | .hbm, ⟨41, _⟩ => ⟨S131072x20x30, .f32⟩
  | .hbm, ⟨42, _⟩ => ⟨S131072x20x30, .f32⟩
  | .hbm, ⟨43, _⟩ => ⟨S131072x20x30, .f32⟩
  | .hbm, ⟨44, _⟩ => ⟨S131072x20x30, .f32⟩
  | .hbm, ⟨45, _⟩ => ⟨S131072x20x40, .f32⟩
  | .hbm, ⟨46, _⟩ => ⟨S131072x20x60, .f32⟩
  | _, _ => ⟨S131072x20x60, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_v1 : Ref sig .tc := ⟨.hbm, 20, rfl⟩
abbrev main_call0_c : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_cst : Ref sig .tc := ⟨.hbm, 25, rfl⟩
abbrev main_call0_v5 : Ref sig .tc := ⟨.hbm, 26, rfl⟩
abbrev main_call0_call0_v0 : Ref sig .tc := ⟨.hbm, 27, rfl⟩
abbrev main_call0_v6 : Ref sig .tc := ⟨.hbm, 28, rfl⟩
abbrev main_call0_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]

class Facts₀ : Prop where
  slices_S131072x20x60_S131072x20x20_0_0_0 : S131072x20x60.Slices ![0, 0, 0] S131072x20x20
  slices_S131072x20x60_S131072x20x40_0_0_20 : S131072x20x60.Slices ![0, 0, 20] S131072x20x40
  slices_S131072x20x40_S131072x20x10_0_0_0 : S131072x20x40.Slices ![0, 0, 0] S131072x20x10
  bcast_S_S20x20 : S_.BroadcastsInDim S20x20 (![] : Fin 0 → Fin S20x20.rank)
  bcast_S20x20_S1x20x20_1_2 : S20x20.BroadcastsInDim S1x20x20 (![1, 2] : Fin 2 → Fin S1x20x20.rank)
  bcast_S1x20x20_S131072x20x20_0_1_2 : S1x20x20.BroadcastsInDim S131072x20x20 (![0, 1, 2] : Fin 3 → Fin S131072x20x20.rank)
  bcast_S_S131072x20x20 : S_.BroadcastsInDim S131072x20x20 (![] : Fin 0 → Fin S131072x20x20.rank)
  bcast_S20x20_S131072x20x20_1_2 : S20x20.BroadcastsInDim S131072x20x20 (![1, 2] : Fin 2 → Fin S131072x20x20.rank)
  reducesTo_S131072x20x20_S131072_d1_2 : S131072x20x20.ReducesTo [1, 2] S131072
  h_S_ : 0 < S_.numel
  bcast_S131072_S131072x1x1_0 : S131072.BroadcastsInDim S131072x1x1 (![0] : Fin 1 → Fin S131072x1x1.rank)
  bcast_S131072x1x1_S131072x20x30_0_1_2 : S131072x1x1.BroadcastsInDim S131072x20x30 (![0, 1, 2] : Fin 3 → Fin S131072x20x30.rank)
  concatenates_S131072x20x10_S131072x20x30_S131072x20x40_d2 : Shape.Concatenates [S131072x20x10, S131072x20x30] S131072x20x40 2
  concatenates_S131072x20x20_S131072x20x40_S131072x20x60_d2 : Shape.Concatenates [S131072x20x20, S131072x20x40] S131072x20x60 2
  dot_S131072x20x20_S131072x20x40_S131072x20x40_2_1_1_2_0_0_wf : DotDims.WF S131072x20x20 S131072x20x40 S131072x20x40 [2] [1] [1] [2] [0] [0]
  dot_S131072x20x40_S40x30_S131072x20x30_2_0_01_1_n_n_wf : DotDims.WF S131072x20x40 S40x30 S131072x20x30 [2] [0] [0, 1] [1] [] []

variable [Facts₀]

def dot_S131072x20x20_S131072x20x40_S131072x20x40_2_1_1_2_0_0 : DotDims S131072x20x20 S131072x20x40 S131072x20x40 where
  lhsContracting := [2]
  rhsContracting := [1]
  lhsNonContracting := [1]
  rhsNonContracting := [2]
  lhsBatch := [0]
  rhsBatch := [0]
  wf := dot_S131072x20x20_S131072x20x40_S131072x20x40_2_1_1_2_0_0_wf
def dot_S131072x20x40_S40x30_S131072x20x30_2_0_01_1_n_n : DotDims S131072x20x40 S40x30 S131072x20x30 where
  lhsContracting := [2]
  rhsContracting := [0]
  lhsNonContracting := [0, 1]
  rhsNonContracting := [1]
  lhsBatch := []
  rhsBatch := []
  wf := dot_S131072x20x40_S40x30_S131072x20x30_2_0_01_1_n_n_wf

class Facts : Prop extends Facts₀ where

variable [Facts]
-- ==== Proof.Spec.lean ====
/-
  The specification: two rounds of message passing on a batch of small graphs, on the extended reals.

  A graph is a 20 × 60 table X: its first 20 columns are the adjacency matrix M, its last 40 the node features H₀.
  With M₀ = M ⊙ (1 − I) the adjacency without its diagonal and t = tr M, one round sends features H to

      H ↦ [ H₀'s first 10 columns | ((M₀ · H) · Wₙ + H · Wₛ) / t ]        (20 × 40),

  and the result is [ M | round (round H₀) ] (20 × 60). The batch is a 131072 × 20 × 60 array of such tables, each
  treated alone. Everything is stated index by index; sums are sums over `Fin n` in the additive commutative monoid of
  the extended reals, so that no order or grouping of a sum matters, and nothing here distributes a product over a sum.
-/
import Idealize.ShloMosaic.PureOps.Ideal
import Idealize.ShloMosaic.PureOps.Ideal.Laws
import Idealize.ShloMosaic.Lib.ValueIdx

noncomputable section

namespace Cert.MsgPass

open Idealize.ShloMosaic Idealize.ShloMosaic.ValueIdx
open scoped BigOperators

/-- The single-precision word of the number one, as the extended real it denotes. -/
abbrev oneW : EReal := Ideal.ofBits .f32 0x3F800000#32

/-- The single-precision zero word, as the extended real it denotes. -/
abbrev zeroW : EReal := Ideal.ofBits .f32 0x00000000#32

/-- The identity matrix's entry. -/
def delta (i j : Fin 20) : EReal := if i = j then 1 else 0

/-- The adjacency matrix with its diagonal removed: M ⊙ (1 − I). -/
def offDiag (M : Fin 20 → Fin 20 → EReal) (i j : Fin 20) : EReal := M i j * (oneW - delta i j)

/-- The trace. -/
def tr (M : Fin 20 → Fin 20 → EReal) : EReal := ∑ i : Fin 20, M i i

/-- Neighbour aggregation M₀ · H. -/
def gather (M0 : Fin 20 → Fin 20 → EReal) (H : Fin 20 → Fin 40 → EReal) (i : Fin 20) (v : Fin 40) : EReal :=
  ∑ j : Fin 20, M0 i j * H j v

/-- The two projections A · Wₙ + H · Wₛ. -/
def mix (Wn Ws : Fin 40 → Fin 30 → EReal) (A H : Fin 20 → Fin 40 → EReal) (i : Fin 20) (c : Fin 30) : EReal :=
  (∑ v : Fin 40, A i v * Wn v c) + ∑ v : Fin 40, H i v * Ws v c

/-- One round: the first ten feature columns are kept from the start features H₀, the other thirty are the mixed
    aggregate divided by the trace. -/
def round (M0 : Fin 20 → Fin 20 → EReal) (t : EReal) (Wn Ws : Fin 40 → Fin 30 → EReal)
    (H0 H : Fin 20 → Fin 40 → EReal) (i : Fin 20) (v : Fin 40) : EReal :=
  if h : v.val < 10 then H0 i v
  else Ideal.div (mix Wn Ws (gather M0 H) H i ⟨v.val - 10, by have := v.isLt; omega⟩) t

/-- The adjacency columns of a graph's table. -/
def adj (X : Fin 20 → Fin 60 → EReal) (i j : Fin 20) : EReal := X i ⟨j.val, by have := j.isLt; omega⟩

/-- The feature columns of a graph's table. -/
def feat (X : Fin 20 → Fin 60 → EReal) (i : Fin 20) (v : Fin 40) : EReal := X i ⟨20 + v.val, by have := v.isLt; omega⟩

/-- The features after both rounds. -/
def feat2 (X : Fin 20 → Fin 60 → EReal) (Wn Ws : Fin 40 → Fin 30 → EReal) : Fin 20 → Fin 40 → EReal :=
  round (offDiag (adj X)) (tr (adj X)) Wn Ws (feat X)
    (round (offDiag (adj X)) (tr (adj X)) Wn Ws (feat X) (feat X))

/-- One graph's result table: the adjacency columns unchanged, then the features after two rounds. -/
def graphOut (X : Fin 20 → Fin 60 → EReal) (Wn Ws : Fin 40 → Fin 30 → EReal) (i : Fin 20) (j : Fin 60) : EReal :=
  if h : j.val < 20 then X i j else feat2 X Wn Ws i ⟨j.val - 20, by have := j.isLt; omega⟩

/-- The batch's shape and the weights' shape. -/
abbrev SX : Shape := ⟨3, ![131072, 20, 60]⟩
abbrev SW : Shape := ⟨2, ![40, 30]⟩

/-- THE SPECIFICATION: the whole result array as one function of the three argument arrays. -/
def G (X : SX.Idx → EReal) (Wn Ws : SW.Idx → EReal) : SX.Idx → EReal :=
  fun idx => graphOut (fun a b => X (ix3 (idx 0) a b)) (fun v c => Wn (ix2 v c)) (fun v c => Ws (ix2 v c)) (idx 1) (idx 2)

theorem G_ix3 (X : SX.Idx → EReal) (Wn Ws : SW.Idx → EReal) (b : Fin 131072) (i : Fin 20) (j : Fin 60) :
    G X Wn Ws (ix3 b i j)
      = graphOut (fun a c => X (ix3 b a c)) (fun v c => Wn (ix2 v c)) (fun v c => Ws (ix2 v c)) i j := rfl

/-! ## Sums accumulated term by term -/

/-- A sum accumulated from the left, one term at a time, starting from the zero word. -/
def accum (f : ℕ → EReal) : ℕ → EReal
  | 0 => zeroW
  | n + 1 => accum f n + f n

theorem accum_zero (f : ℕ → EReal) : accum f 0 = zeroW := rfl
theorem accum_succ (f : ℕ → EReal) (n : ℕ) : accum f (n + 1) = accum f n + f n := rfl

/-- The accumulated sum is the sum of its terms. -/
theorem accum_eq_sum (f : ℕ → EReal) (n : ℕ) : accum f n = ∑ k ∈ Finset.range n, f k := by
  induction n with
  | zero => simp [accum, Ideal.ofBits_zero_f32]
  | succ n ih => rw [accum_succ, ih, Finset.sum_range_succ]

/-- The j-th term of a neighbour sum, as a function of a natural number (zero past the twentieth). -/
def nterm (a h : Fin 20 → EReal) (j : ℕ) : EReal := if hj : j < 20 then a ⟨j, hj⟩ * h ⟨j, hj⟩ else 0

theorem nterm_of_lt (a h : Fin 20 → EReal) (j : ℕ) (hj : j < 20) : nterm a h j = a ⟨j, hj⟩ * h ⟨j, hj⟩ := dif_pos hj

/-- All twenty terms accumulated are the neighbour sum. -/
theorem accum_nterm (a h : Fin 20 → EReal) : accum (nterm a h) 20 = ∑ j : Fin 20, a j * h j := by
  rw [accum_eq_sum, Finset.sum_range]
  exact Finset.sum_congr rfl fun j _ => nterm_of_lt a h j.val j.isLt

end Cert.MsgPass

end
-- ==== Proof.LibRows.lean ====
/-
  Rows of a matrix read at an index, over the extended reals: a vector laid out as a column and spread over the
  columns of a matrix reads, at (i, c), the vector's entry i; the maximum and the sum along a matrix's rows, and
  along the last axis of a rank-three array, are the fold of `max` and the `Fin`-indexed sum over that row's entries.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.LibRows

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector spread over the columns of a matrix reads, at `(p, c)`, its entry `p`. -/
theorem column_spread_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- Row `i` of a matrix with the column coordinate `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Row `(p, i)` of a rank-three array with the last coordinate `k` put back is `(p, i, k)`. -/
theorem lift_last3 {n a b : ℕ} (h : (⟨3, ![n, a, b]⟩ : Shape).Reduces [2] (⟨2, ![n, a]⟩ : Shape)) (p : Fin n) (i : Fin a)
    (k : Fin ((⟨3, ![n, a, b]⟩ : Shape).size 2)) : h.lift (ix2 p i) k = ix3 p i (⟨k.val, k.isLt⟩ : Fin b) := by
  funext c; apply Fin.ext
  fin_cases c <;> rfl

/-- The maximum along a matrix's rows, folded from the accumulator's word: at row `i`, the fold of `max` over the row. -/
theorem rowMax_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] ⟨1, ![a]⟩ X acc h hφ hacc (ix1 i)
      = (Finset.univ : Finset (Fin b)).fold max (Ideal.ofBits .f32 acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  exact congrArg (fun f => Finset.fold max (Ideal.ofBits .f32 acc) f (Finset.univ : Finset (Fin b))) hf

/-- The sum along a matrix's rows: at row `i`, the sum over the row. -/
theorem rowSum_apply {a b : ℕ} (X : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- Each row's maximum, taken once more against `c`, laid out as a column and spread over the columns: at `(p, q)`, the
    maximum of `c` and the fold of `max` over row `p`. -/
theorem spreadRowMax_apply {a b : ℕ} (X : FVec Ideal ⟨2, ![a, b]⟩ .f32) (c : Ideal .f32) (acc : BitVec 32)
    (h : (⟨2, ![a, b]⟩ : Shape).Reduces [1] (⟨1, ![a]⟩ : Shape)) (hφ : FKind.Formats .f32)
    (hacc : acc = FKind.maximumf.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩
        (shapeCast ⟨2, ![a, 1]⟩ (maximumf (broadcast ⟨1, ![a]⟩ c) (multiReduction .maximumf [1] ⟨1, ![a]⟩ X acc h hφ hacc)) h1) h2
        (ix2 p q)
      = max c ((Finset.univ : Finset (Fin b)).fold max (Ideal.ofBits .f32 acc) (fun k => X (ix2 p k))) := by
  refine (column_spread_apply _ h1 h2 p q).trans ?_
  show max c (multiReduction .maximumf [1] ⟨1, ![a]⟩ X acc h hφ hacc (ix1 p)) = _
  rw [rowMax_apply]

/-- Each row's sum laid out as a column and spread over the columns: at `(p, q)`, the sum of row `p`. -/
theorem spreadRowSum_apply {a b : ℕ} (E : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ (multiReduction .add [1] ⟨1, ![a]⟩ E acc h hφ hacc) h1) h2 (ix2 p q)
      = ∑ k : Fin b, E (ix2 p k) :=
  (column_spread_apply _ h1 h2 p q).trans (rowSum_apply E acc h hφ hacc p)

/-- A host reduction by `max` along the last axis of a rank-three array: at `(p, i)`, the fold of `max` from the
    initial value over that row. -/
theorem hostRowMax_apply {n a b : ℕ} {u : Shape} (X : FVec Ideal ⟨3, ![n, a, b]⟩ .f32) (init : u.Idx → Ideal .f32)
    (h' : (⟨3, ![n, a, b]⟩ : Shape).ReducesTo [2] (⟨2, ![n, a]⟩ : Shape))
    (h : (⟨3, ![n, a, b]⟩ : Shape).Reduces [2] (⟨2, ![n, a]⟩ : Shape)) (hu : 0 < u.numel) (p : Fin n) (i : Fin a) :
    Host.reduce FloatOps.maximumf X init h' hu (ix2 p i)
      = (Finset.univ : Finset (Fin b)).fold max (init (Shape.Idx.first hu)) (fun k => X (ix3 p i k)) := by
  refine (Host.reduce_eq_fold_single FloatOps.maximumf X init h' h hu (ix2 p i)).trans ?_
  have hf : (X ∘ h.lift (ix2 p i)) = fun k : Fin b => X (ix3 p i k) := funext fun k => congrArg X (lift_last3 h p i k)
  exact congrArg (fun f => Finset.fold max (init (Shape.Idx.first hu)) f (Finset.univ : Finset (Fin b))) hf

end Cert.LibRows

end
-- ==== Proof.LibBatch.lean ====
/-
  Batched matrix products and last-axis slices of rank-3 arrays read at an index, over variable extents. A batched
  product [B, M, K] · [B, K, N] on the host, at the extended reals, is at (b, p, c) the sum over the shared axis of the
  left factor's row (b, p) times the right factor's column (b, ·, c): batches never mix. A block of the last axis cut
  out of a rank-3 array reads the array at the shifted last coordinate.
-/
import Idealize.ShloMosaic.PureOps.Ideal.Laws
import Idealize.ShloMosaic.Lib.ValueIdx
import Idealize.ShloMosaic.Lib.Pipeline.Value

noncomputable section

namespace Cert.LibBatch

open Idealize.ShloMosaic Idealize.ShloMosaic.ValueIdx
open scoped BigOperators

variable {α : Type}

/-- Entries `o … o + C' − 1` of the last axis of an `[A, B, C]` array, read at `(a, b, j)`: the array at
    `(a, b, o + j)`. -/
theorem sliceLast3_apply {A B C C' : ℕ} (o : ℕ) (v : (⟨3, ![A, B, C]⟩ : Shape).Idx → α)
    (h : (⟨3, ![A, B, C]⟩ : Shape).Slices ![0, 0, o] ⟨3, ![A, B, C']⟩) (a : Fin A) (b : Fin B) (j : Fin C')
    (hj : o + j.val < C) :
    extractStridedSlice ⟨3, ![A, B, C']⟩ ![0, 0, o] v h (ix3 a b j) = v (ix3 a b ⟨o + j.val, hj⟩) :=
  extractStridedSlice_apply ![0, 0, o] v h (ix3 a b j) (ix3 a b ⟨o + j.val, hj⟩) (fun x => match x with
    | ⟨0, _⟩ => by show a.val = 0 + a.val; omega
    | ⟨1, _⟩ => by show b.val = 0 + b.val; omega
    | ⟨2, _⟩ => rfl)

/-- A batched `[B, M, K] · [B, K, N]` product on the host, read at `(b, p, c)` at the extended reals: the sum over the
    shared axis within batch `b`. The six hypotheses say which coordinates the product's dimension numbers pair up. -/
theorem dotGeneral_batched_apply {B M K N : ℕ} {φ₁ φ₂ : FTy}
    (d : DotDims ⟨3, ![B, M, K]⟩ ⟨3, ![B, K, N]⟩ ⟨3, ![B, M, N]⟩)
    (hr : d.contr.rank = 1) (hs : d.contr.size ⟨0, by omega⟩ = K)
    (hl0 : ∀ i q, (d.lhsIdx i q 0).val = (i 0).val) (hl1 : ∀ i q, (d.lhsIdx i q 1).val = (i 1).val)
    (hl2 : ∀ i q, (d.lhsIdx i q 2).val = (q ⟨0, by omega⟩).val)
    (hr0 : ∀ i q, (d.rhsIdx i q 0).val = (i 0).val) (hr1 : ∀ i q, (d.rhsIdx i q 1).val = (q ⟨0, by omega⟩).val)
    (hr2 : ∀ i q, (d.rhsIdx i q 2).val = (i 2).val)
    (prec : Option ContractPrecision) (lhs : FVec Ideal ⟨3, ![B, M, K]⟩ φ₁) (rhs : FVec Ideal ⟨3, ![B, K, N]⟩ φ₂)
    (b : Fin B) (p : Fin M) (c : Fin N) :
    Host.dotGeneral d prec lhs rhs (ix3 b p c) = ∑ k : Fin K, lhs (ix3 b p k) * rhs (ix3 b k c) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix3 b p c) ((contrEquiv1 d K hr hs).symm k) = ix3 b p k := funext fun a => Fin.ext (by
    match a with
    | ⟨0, _⟩ => exact hl0 _ _
    | ⟨1, _⟩ => exact hl1 _ _
    | ⟨2, _⟩ => exact (hl2 _ _).trans hk)
  have er : d.rhsIdx (ix3 b p c) ((contrEquiv1 d K hr hs).symm k) = ix3 b k c := funext fun a => Fin.ext (by
    match a with
    | ⟨0, _⟩ => exact hr0 _ _
    | ⟨1, _⟩ => exact (hr1 _ _).trans hk
    | ⟨2, _⟩ => exact hr2 _ _)
  rw [el, er]

end Cert.LibBatch

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.LibSplitDense.lean ====
/-
  General lemmas for a dense layer applied to two feature blocks laid side by side, over variable extents.

  * `sliceRows_apply`: rows `o … o + R' − 1` cut out of an [R, C] matrix, read at (k, j), are the matrix at (o + k, j).
  * `sum_split`: a sum over `Fin c` with `a + b = c` is the sum over the first `a` indices plus the sum over the
    last `b`, in any additive commutative monoid (no cancellation is used, so it holds on the extended reals).
  * `concat_dense_sum`: for [n, a] and [n, b] matrices x, y laid side by side along axis 1 and a weight matrix
    [c, N] with a + b = c,  ∑ₖ concat(x, y)(r, k) · W(k, j) = ∑ₖ x(r, k) · W(k, j) + ∑ₖ y(r, k) · W(a + k, j):
    the product with the stacked weights is the sum of the two products with the weights' upper and lower row blocks.
-/
import Idealize.ShloMosaic.Lib.ValueIdx
import Idealize.ShloMosaic.Lib.Pipeline.Value
import Idealize.ShloMosaic.PureOps.Ideal.Laws
import proofs.«124149_j62792421868061_2_alg».proof.Proof.LibDense

noncomputable section

namespace Cert.LibSplitDense

open Idealize.ShloMosaic Idealize.ShloMosaic.ValueIdx
open scoped BigOperators

/-- Rows `o … o + R' − 1` of an `[R, C]` matrix, read at `(k, j)`: the matrix at `(o + k, j)`. -/
theorem sliceRows_apply {α : Type} {R R' C : ℕ} (o : ℕ) (v : (⟨2, ![R, C]⟩ : Shape).Idx → α)
    (h : (⟨2, ![R, C]⟩ : Shape).Slices ![o, 0] ⟨2, ![R', C]⟩) (k : Fin R') (j : Fin C) (hk : o + k.val < R) :
    extractStridedSlice ⟨2, ![R', C]⟩ ![o, 0] v h (ix2 k j) = v (ix2 ⟨o + k.val, hk⟩ j) :=
  extractStridedSlice_apply ![o, 0] v h (ix2 k j) (ix2 ⟨o + k.val, hk⟩ j) (fun a => match a with
    | ⟨0, _⟩ => rfl
    | ⟨1, _⟩ => by show j.val = 0 + j.val; omega)

/-- A sum over `a + b` indices is the sum over the first `a` plus the sum over the last `b`. -/
theorem sum_split {M : Type*} [AddCommMonoid M] {a b c : ℕ} (hc : a + b = c) (f : Fin c → M) :
    ∑ k : Fin c, f k
      = (∑ k : Fin a, f ⟨k.val, by have := k.isLt; omega⟩) + ∑ k : Fin b, f ⟨a + k.val, by have := k.isLt; omega⟩ := by
  subst hc
  exact Fin.sum_univ_add f

/-- The product of two side-by-side feature blocks with a stacked weight matrix, at (r, j): the first block against the
    weights' upper rows plus the second block against the lower rows. -/
theorem concat_dense_sum {n a b c N : ℕ} (hc : a + b = c)
    (x : (⟨2, ![n, a]⟩ : Shape).Idx → EReal) (y : (⟨2, ![n, b]⟩ : Shape).Idx → EReal)
    (h : Shape.Concatenates [(⟨2, ![n, a]⟩ : Shape), ⟨2, ![n, b]⟩] ⟨2, ![n, c]⟩ 1)
    (W : (⟨2, ![c, N]⟩ : Shape).Idx → EReal) (r : Fin n) (j : Fin N) :
    ∑ k : Fin c, concatenate (⟨2, ![n, c]⟩ : Shape) 1 [⟨⟨2, ![n, a]⟩, x⟩, ⟨⟨2, ![n, b]⟩, y⟩] h (ix2 r k) * W (ix2 k j)
      = (∑ k : Fin a, x (ix2 r k) * W (ix2 (⟨k.val, by have := k.isLt; omega⟩ : Fin c) j))
        + ∑ k : Fin b, y (ix2 r k) * W (ix2 (⟨a + k.val, by have := k.isLt; omega⟩ : Fin c) j) := by
  rw [sum_split hc]
  refine congrArg₂ (· + ·) (Finset.sum_congr rfl fun k _ => ?_) (Finset.sum_congr rfl fun k _ => ?_)
  · rw [Cert.LibDense.concat_cols_apply hc x y h r, dif_pos (show (⟨k.val, _⟩ : Fin c).val < a from k.isLt)]
  · rw [Cert.LibDense.concat_cols_apply hc x y h r,
      dif_neg (show ¬ (⟨a + k.val, _⟩ : Fin c).val < a from by show ¬ a + k.val < a; omega)]
    refine congrArg (fun t => y (ix2 r t) * _) (Fin.ext ?_)
    show a + k.val - a = k.val
    omega

end Cert.LibSplitDense

end
-- ==== Proof.GraphBlock.lean ====
/-
  The vector operations a block of 1024 graphs goes through, read at an index, on the extended reals.

  * the identity matrix built from two coordinate grids compared for equality, then converted to a number, reads
    `delta i j` (1 on the diagonal, 0 off it);
  * a 20 × 20 matrix given a leading unit axis and spread over the 1024 graphs reads, at (p, i, j), the matrix at (i, j);
  * column j of a [1024, 20, 20] array spread along the last axis, times row j of a [1024, 20, 40] array spread along the
    middle axis, reads at (p, i, v) the product  a(p, i, j) · h(p, j, v): one term of the neighbour sum;
  * the sum over the last axis, then over the middle axis, of a [1024, 20, 20] array reads at graph p the double sum.
-/
import Idealize.ShloMosaic.PureOps.Ideal.Laws
import Idealize.ShloMosaic.Lib.ValueIdx
import Idealize.ShloMosaic.Lib.Pipeline.Value
import proofs.«124149_j62792421868061_2_alg».proof.Proof.Spec
import proofs.«124149_j62792421868061_2_alg».proof.Proof.LibRows
import proofs.«124149_j62792421868061_2_alg».proof.Proof.LibBatch
import proofs.«124149_j62792421868061_2_alg».proof.Proof.LibSplitDense

noncomputable section

namespace Cert.MsgPass.Block

open Idealize.ShloMosaic Idealize.ShloMosaic.ValueIdx Cert.MsgPass
open scoped BigOperators

abbrev T60 : Shape := ⟨3, ![1024, 20, 60]⟩
abbrev T20 : Shape := ⟨3, ![1024, 20, 20]⟩
abbrev T40 : Shape := ⟨3, ![1024, 20, 40]⟩
abbrev T10 : Shape := ⟨3, ![1024, 20, 10]⟩
abbrev T30 : Shape := ⟨3, ![1024, 20, 30]⟩
abbrev T80 : Shape := ⟨3, ![1024, 20, 80]⟩
abbrev Col : Shape := ⟨3, ![1024, 20, 1]⟩
abbrev Row : Shape := ⟨3, ![1024, 1, 40]⟩
abbrev One3 : Shape := ⟨3, ![1024, 1, 1]⟩
abbrev Q20 : Shape := ⟨2, ![20, 20]⟩
abbrev Q1 : Shape := ⟨3, ![1, 20, 20]⟩

/-! ## The identity matrix -/

/-- Two coordinates below twenty, as 32-bit words, are equal words exactly when they are the same coordinate. -/
theorem eqBit : ∀ i j : Fin 20,
    IntOp.cmpi .eq (IntOp.addi (BitVec.ofNat 32 i.val) 0#32) (BitVec.ofNat 32 j.val) = if i = j then 1#1 else 0#1 := by
  decide +kernel

/-- The comparison of the row grid (plus a zero splat) with the column grid, at (i, j). -/
theorem eyeBit_apply (h0 : Q20.Iotas .tc 32 [0]) (h1 : Q20.Iotas .tc 32 [1]) (i j : Fin 20) :
    cmpi .eq (addi (iota .tc Q20 32 [0] h0) (broadcast Q20 0#32)) (iota .tc Q20 32 [1] h1) (ix2 i j)
      = if i = j then 1#1 else 0#1 := by
  show IntOp.cmpi .eq (IntOp.addi (iota .tc Q20 32 [0] h0 (ix2 i j)) 0#32) (iota .tc Q20 32 [1] h1 (ix2 i j)) = _
  rw [iota_single_apply, iota_single_apply]
  exact eqBit i j

/-- The 0/1 word widened and read as a signed integer is the identity matrix's entry. -/
theorem eye_apply (h0 : Q20.Iotas .tc 32 [0]) (h1 : Q20.Iotas .tc 32 [1]) (hlt : 1 < 32) (i j : Fin 20) :
    (sitofp .f32 (extui 32 (cmpi .eq (addi (iota .tc Q20 32 [0] h0) (broadcast Q20 0#32)) (iota .tc Q20 32 [1] h1)) hlt)
      : FVec Ideal Q20 .f32) (ix2 i j) = delta i j := by
  show ((((cmpi .eq (addi (iota .tc Q20 32 [0] h0) (broadcast Q20 0#32)) (iota .tc Q20 32 [1] h1) (ix2 i j)).setWidth 32).toInt : ℝ) : EReal) = _
  rw [eyeBit_apply]
  unfold delta
  by_cases hij : i = j
  · rw [if_pos hij, if_pos hij]
    have : ((1#1 : BitVec 1).setWidth 32).toInt = 1 := by decide
    rw [this]; simp
  · rw [if_neg hij, if_neg hij]
    have : ((0#1 : BitVec 1).setWidth 32).toInt = 0 := by decide
    rw [this]; simp

/-! ## Layout -/

variable {α : Type}

/-- A 20 × 20 matrix given a leading unit axis and spread over the graphs: at (p, i, j), the matrix at (i, j). -/
theorem spreadMat_apply (e : Q20.Idx → α) (hsc : Q20.ShapeCasts Q1) (hb : Q1.Broadcasts T20) (p : Fin 1024) (i j : Fin 20) :
    broadcastTo T20 (shapeCast Q1 e hsc) hb (ix3 p i j) = e (ix2 i j) := by
  refine (broadcastTo_apply _ hb (ix3 p i j) (ix3 (0 : Fin 1) i j) fun ax => ?_).trans ?_
  · match ax with
    | ⟨0, _⟩ => rfl
    | ⟨1, _⟩ => rfl
    | ⟨2, _⟩ => rfl
  · exact shapeCast_apply e hsc _ _ (by
      rw [Shape.rowMajor_val_two, Shape.rowMajor_val_three]
      show i.val * 20 + j.val = ((0 : Fin 1).val * 20 + i.val) * 20 + j.val
      simp)

/-- Column j of a [1024, 20, 20] array: at (p, i, 0), the array at (p, i, j). -/
theorem col_apply (a : T20.Idx → α) (j : ℕ) (hs : T20.Slices ![0, 0, j] Col) (hj : j < 20) (p : Fin 1024) (i : Fin 20) (u : Fin 1) :
    extractStridedSlice Col ![0, 0, j] a hs (ix3 p i u) = a (ix3 p i ⟨j, hj⟩) :=
  extractStridedSlice_apply ![0, 0, j] a hs (ix3 p i u) (ix3 p i ⟨j, hj⟩) (fun x => match x with
    | ⟨0, _⟩ => by show p.val = 0 + p.val; omega
    | ⟨1, _⟩ => by show i.val = 0 + i.val; omega
    | ⟨2, _⟩ => by show j = j + u.val; omega)

/-- Row j of a [1024, 20, 40] array: at (p, 0, v), the array at (p, j, v). -/
theorem row_apply (h : T40.Idx → α) (j : ℕ) (hs : T40.Slices ![0, j, 0] Row) (hj : j < 20) (p : Fin 1024) (u : Fin 1) (v : Fin 40) :
    extractStridedSlice Row ![0, j, 0] h hs (ix3 p u v) = h (ix3 p ⟨j, hj⟩ v) :=
  extractStridedSlice_apply ![0, j, 0] h hs (ix3 p u v) (ix3 p ⟨j, hj⟩ v) (fun x => match x with
    | ⟨0, _⟩ => by show p.val = 0 + p.val; omega
    | ⟨1, _⟩ => by show j = j + u.val; omega
    | ⟨2, _⟩ => by show v.val = 0 + v.val; omega)

/-- A column spread along the last axis: at (p, i, v), the column at (p, i). -/
theorem spreadCol_apply (x : Col.Idx → α) (hb : Col.Broadcasts T40) (p : Fin 1024) (i : Fin 20) (v : Fin 40) :
    broadcastTo T40 x hb (ix3 p i v) = x (ix3 p i (0 : Fin 1)) :=
  broadcastTo_apply x hb (ix3 p i v) (ix3 p i (0 : Fin 1)) fun ax => match ax with
    | ⟨0, _⟩ => rfl
    | ⟨1, _⟩ => rfl
    | ⟨2, _⟩ => rfl

/-- A row spread along the middle axis: at (p, i, v), the row at (p, v). -/
theorem spreadRow_apply (x : Row.Idx → α) (hb : Row.Broadcasts T40) (p : Fin 1024) (i : Fin 20) (v : Fin 40) :
    broadcastTo T40 x hb (ix3 p i v) = x (ix3 p (0 : Fin 1) v) :=
  broadcastTo_apply x hb (ix3 p i v) (ix3 p (0 : Fin 1) v) fun ax => match ax with
    | ⟨0, _⟩ => rfl
    | ⟨1, _⟩ => rfl
    | ⟨2, _⟩ => rfl

/-- ONE TERM of the neighbour sum: column j of `a` spread along the last axis times row j of `h` spread along the middle
    axis is, at (p, i, v), a(p, i, j) · h(p, j, v). -/
theorem term_apply (a : FVec Ideal T20 .f32) (h : FVec Ideal T40 .f32) (j : ℕ)
    (hs1 : T20.Slices ![0, 0, j] Col) (hs2 : T40.Slices ![0, j, 0] Row) (hb1 : Col.Broadcasts T40) (hb2 : Row.Broadcasts T40)
    (p : Fin 1024) (i : Fin 20) (v : Fin 40) :
    mulf (broadcastTo T40 (extractStridedSlice Col ![0, 0, j] a hs1) hb1)
         (broadcastTo T40 (extractStridedSlice Row ![0, j, 0] h hs2) hb2) (ix3 p i v)
      = nterm (fun k => a (ix3 p i k)) (fun k => h (ix3 p k v)) j := by
  have hj : j < 20 := by
    have := hs1.2 (2 : Fin 3)
    have e : j + 1 ≤ 20 := this
    omega
  rw [nterm_of_lt _ _ j hj]
  show broadcastTo T40 (extractStridedSlice Col ![0, 0, j] a hs1) hb1 (ix3 p i v)
      * broadcastTo T40 (extractStridedSlice Row ![0, j, 0] h hs2) hb2 (ix3 p i v) = _
  rw [spreadCol_apply, spreadRow_apply, col_apply a j hs1 hj, row_apply h j hs2 hj]

/-! ## The trace -/

abbrev M20 : Shape := ⟨2, ![1024, 20]⟩
abbrev M1 : Shape := ⟨2, ![1024, 1]⟩

/-- Graph p's column with the middle coordinate k put back is (p, k, ·). -/
theorem lift_mid (h : Col.Reduces [1] M1) (p : Fin 1024) (u : Fin 1) (k : Fin (Col.size 1)) :
    h.lift (ix2 p u) k = ix3 p (⟨k.val, k.isLt⟩ : Fin 20) u := by
  funext c; apply Fin.ext
  fin_cases c <;> rfl

/-- The sum over the last axis, laid out as a column, then over the middle axis, of an entrywise product M ⊙ E of
    [1024, 20, 20] arrays: at graph p, the double sum over (i, j). -/
theorem sumAll_apply (M E : FVec Ideal T20 .f32)
    (hr1 : T20.Reduces [2] M20) (hφ1 : FKind.Formats .f32) (hacc1 : (0x00000000#32 : BitVec FTy.f32.bits) = FKind.add.neutral .f32 hφ1)
    (hsc1 : M20.ShapeCasts Col)
    (hr2 : Col.Reduces [1] M1) (hφ2 : FKind.Formats .f32) (hacc2 : (0x00000000#32 : BitVec FTy.f32.bits) = FKind.add.neutral .f32 hφ2)
    (hsc2 : M1.ShapeCasts One3) (p : Fin 1024) (u w : Fin 1) :
    shapeCast One3 (multiReduction .add [1] M1
        (shapeCast Col (multiReduction .add [2] M20 (mulf M E) 0x00000000#32 hr1 hφ1 hacc1) hsc1)
        0x00000000#32 hr2 hφ2 hacc2) hsc2 (ix3 p u w)
      = ∑ i : Fin 20, ∑ j : Fin 20, M (ix3 p i j) * E (ix3 p i j) := by
  have hu : u.val = 0 := by omega
  have hw : w.val = 0 := by omega
  refine (shapeCast_apply _ hsc2 (ix3 p u w) (ix2 p (0 : Fin 1)) ?_).trans ?_
  · rw [Shape.rowMajor_val_two, Shape.rowMajor_val_three]
    show p.val * 1 + (0 : Fin 1).val = (p.val * 1 + u.val) * 1 + w.val
    rw [hu, hw]; simp
  refine (Ideal.multiReduction_add_single _ _ hr2 hφ2 hacc2 (ix2 p (0 : Fin 1))).trans ?_
  refine Finset.sum_congr rfl fun i _ => ?_
  rw [lift_mid hr2 p 0 i]
  refine (shapeCast_apply _ hsc1 _ (ix2 p (⟨i.val, i.isLt⟩ : Fin 20)) ?_).trans ?_
  · rw [Shape.rowMajor_val_two, Shape.rowMajor_val_three]
    show p.val * 20 + i.val = (p.val * 20 + i.val) * 1 + (0 : Fin 1).val
    simp
  refine (Ideal.multiReduction_add_single _ _ hr1 hφ1 hacc1 (ix2 p (⟨i.val, i.isLt⟩ : Fin 20))).trans ?_
  refine Finset.sum_congr rfl fun j _ => ?_
  rw [Cert.LibRows.lift_last3 hr1 p ⟨i.val, i.isLt⟩ j]
  rfl

/-! ## One round's tail -/

abbrev W80 : Shape := ⟨2, ![80, 30]⟩
abbrev F80 : Shape := ⟨2, ![20480, 80]⟩
abbrev F30 : Shape := ⟨2, ![20480, 30]⟩

/-- The aggregate A and the features H laid side by side, the 1024 × 20 rows flattened, multiplied into the stacked
    [80, 30] weights, unflattened, divided by the graph's scalar t, and set to the right of the ten kept columns C:
    at (p, i, v), column v of C when v < 10, otherwise
      ( Σᵤ A(p,i,u) · w(u, v−10)  +  Σᵤ H(p,i,u) · w(40+u, v−10) ) / t(p). -/
theorem roundTail_apply (A H : FVec Ideal T40 .f32) (C : FVec Ideal T10 .f32) (t : FVec Ideal One3 .f32) (w : FVec Ideal W80 .f32)
    (hc1 : Shape.Concatenates [T40, T40] T80 2) (hsc1 : T80.ShapeCasts F80)
    (wf : DotDims.WF F80 W80 F30 [1] [0] [0] [1] [] []) (prec : Option ContractPrecision)
    (hsc2 : F30.ShapeCasts T30) (hb : One3.Broadcasts T30) (hc2 : Shape.Concatenates [T10, T30] T40 2)
    (p : Fin 1024) (i : Fin 20) (v : Fin 40) :
    concatenate T40 2 [⟨T10, C⟩, ⟨T30, divf (shapeCast T30 (matmul (Cert.LibDense.plainOf wf) prec
        (shapeCast F80 (concatenate T80 2 [⟨T40, A⟩, ⟨T40, H⟩] hc1) hsc1) w (constant F30 .f32 0x00000000#32)) hsc2)
        (broadcastTo T30 t hb)⟩] hc2 (ix3 p i v)
      = if hv : v.val < 10 then C (ix3 p i ⟨v.val, hv⟩)
        else Ideal.div
          ((∑ u : Fin 40, A (ix3 p i u) * w (ix2 (⟨u.val, by have := u.isLt; omega⟩ : Fin 80) (⟨v.val - 10, by have := v.isLt; omega⟩ : Fin 30)))
            + ∑ u : Fin 40, H (ix3 p i u) * w (ix2 (⟨40 + u.val, by have := u.isLt; omega⟩ : Fin 80) (⟨v.val - 10, by have := v.isLt; omega⟩ : Fin 30)))
          (t (ix3 p (0 : Fin 1) (0 : Fin 1))) := by
  by_cases hv : v.val < 10
  · rw [dif_pos hv]
    exact concatenate_pair_apply_left 2 C _ hc2 (ix3 p i v) rfl (ix3 p i ⟨v.val, hv⟩)
      (fun b => by match b with | ⟨0, _⟩ => rfl | ⟨1, _⟩ => rfl | ⟨2, _⟩ => rfl)
  · rw [dif_neg hv]
    have hv30 : v.val - 10 < 30 := by have := v.isLt; omega
    refine (concatenate_pair_apply_right 2 C _ hc2 (ix3 p i v) rfl rfl (ix3 p i (⟨v.val - 10, hv30⟩ : Fin 30))
      (fun b hb' => by
        match b with
        | ⟨0, _⟩ => rfl
        | ⟨1, _⟩ => rfl
        | ⟨2, _⟩ => exact absurd rfl hb') ?_).trans ?_
    · show v.val - 10 + 10 = v.val
      omega
    have hr : p.val * 20 + i.val < 20480 := by have := p.isLt; have := i.isLt; omega
    show Ideal.div (shapeCast T30 _ hsc2 (ix3 p i (⟨v.val - 10, hv30⟩ : Fin 30))) (broadcastTo T30 t hb (ix3 p i (⟨v.val - 10, hv30⟩ : Fin 30))) = _
    refine congrArg₂ Ideal.div ?_ ?_
    · refine (shapeCast_apply _ hsc2 _ (ix2 (⟨p.val * 20 + i.val, hr⟩ : Fin 20480) (⟨v.val - 10, hv30⟩ : Fin 30)) ?_).trans ?_
      · rw [Shape.rowMajor_val_two, Shape.rowMajor_val_three]
        rfl
      refine (Cert.LibDense.matmul_zero_plain wf prec _ w _ _).trans ?_
      rw [Cert.LibSplitDense.sum_split (a := 40) (b := 40) (c := 80) rfl]
      refine congrArg₂ (· + ·) (Finset.sum_congr rfl fun u _ => ?_) (Finset.sum_congr rfl fun u _ => ?_)
      · refine congrArg (· * _) ?_
        refine (shapeCast_apply _ hsc1 _ (ix3 p i (⟨u.val, by have := u.isLt; omega⟩ : Fin 80)) ?_).trans ?_
        · rw [Shape.rowMajor_val_two, Shape.rowMajor_val_three]
          rfl
        exact concatenate_pair_apply_left 2 A H hc1 _ rfl (ix3 p i u)
          (fun b => by match b with | ⟨0, _⟩ => rfl | ⟨1, _⟩ => rfl | ⟨2, _⟩ => rfl)
      · refine congrArg (· * _) ?_
        refine (shapeCast_apply _ hsc1 _ (ix3 p i (⟨40 + u.val, by have := u.isLt; omega⟩ : Fin 80)) ?_).trans ?_
        · rw [Shape.rowMajor_val_two, Shape.rowMajor_val_three]
          rfl
        refine concatenate_pair_apply_right 2 A H hc1 _ rfl rfl (ix3 p i u)
          (fun b hb' => by
            match b with
            | ⟨0, _⟩ => rfl
            | ⟨1, _⟩ => rfl
            | ⟨2, _⟩ => exact absurd rfl hb') ?_
        show u.val + 40 = 40 + u.val
        omega
    · exact broadcastTo_apply t hb _ (ix3 p (0 : Fin 1) (0 : Fin 1)) fun ax => by
        match ax with
        | ⟨0, _⟩ => rfl
        | ⟨1, _⟩ => rfl
        | ⟨2, _⟩ => rfl

end Cert.MsgPass.Block

end
-- ==== Proof.KernelValue.lean ====
/-
  What the kernel's body computes for one block of 1024 graphs, index by index, on the extended reals.

  The body's arithmetic is a chain of named pure terms over the block x0 : [1024, 20, 60] it loads and the stacked
  weights x1 : [80, 30]. Graph p of the block is the table X = x0(p, ·, ·). Read at an index:
    * the three slices are X's adjacency columns, feature columns and first ten feature columns;
    * the mask is 1 − I, the masked adjacency is M₀ = M ⊙ (1 − I), the scalar is tr M (the double sum of M ⊙ I);
    * the twenty-term neighbour sum, accumulated from the zero word one product at a time, is Σⱼ M₀(i, j) · H(j, v);
    * a round's tail is ((M₀H) · Wₙ + H · Wₛ) / tr M beside the ten kept columns, Wₙ and Wₛ the upper and lower forty
      rows of the stacked weights (a sum over eighty indices split in two).
  So the value stored in columns 20‥59 is the features after two rounds, and the value stored in columns 0‥19 is M.
-/
import proofs.«124149_j62792421868061_2_alg».proof.Proof.Gen.KernelIdeal.Skeleton
import proofs.«124149_j62792421868061_2_alg».proof.Proof.GraphBlock

noncomputable section

namespace Cert.KernelIdeal.BlockValue

open Cert.KernelIdeal Cert.KernelIdeal.Gen Idealize.ShloMosaic Idealize.ShloMosaic.ValueIdx
open Cert.MsgPass Cert.MsgPass.Block
open scoped BigOperators

/-- Graph p of a block, as a 20 × 60 table. -/
def graph (x0 : Vec Ideal S1024x20x60 .f32) (p : Fin 1024) : Fin 20 → Fin 60 → EReal := fun a b => x0 (ix3 p a b)

/-- The upper and the lower forty rows of the stacked weights. -/
def wUp (x1 : Vec Ideal S80x30 .f32) (u : Fin 40) (c : Fin 30) : EReal := x1 (ix2 (⟨u.val, by have := u.isLt; omega⟩ : Fin 80) c)
def wLo (x1 : Vec Ideal S80x30 .f32) (u : Fin 40) (c : Fin 30) : EReal := x1 (ix2 (⟨40 + u.val, by have := u.isLt; omega⟩ : Fin 80) c)

variable (x0 : Vec Ideal S1024x20x60 .f32) (x1 : Vec Ideal S80x30 .f32)

/-! ## Slices, mask, masked adjacency, trace -/

theorem pay1_apply (p : Fin 1024) (i j : Fin 20) : k0_pay1 x0 (ix3 p i j) = adj (graph x0 p) i j := by
  unfold k0_pay1
  refine (Cert.LibBatch.sliceLast3_apply 0 x0 _ p i j (by have := j.isLt; omega)).trans ?_
  exact congrArg (fun k => x0 (ix3 p i k)) (Fin.ext (Nat.zero_add _))

theorem pay2_apply (p : Fin 1024) (i : Fin 20) (v : Fin 40) : k0_pay2 x0 (ix3 p i v) = feat (graph x0 p) i v := by
  unfold k0_pay2
  exact Cert.LibBatch.sliceLast3_apply 20 x0 _ p i v (by have := v.isLt; omega)

theorem pay3_apply (p : Fin 1024) (i : Fin 20) (k : Fin 10) :
    k0_pay3 x0 (ix3 p i k) = feat (graph x0 p) i (⟨k.val, by have := k.isLt; omega⟩ : Fin 40) := by
  unfold k0_pay3
  refine (Cert.LibBatch.sliceLast3_apply 0 (k0_pay2 x0) _ p i k (by have := k.isLt; omega)).trans ?_
  rw [pay2_apply]
  exact congrArg (fun k' => feat (graph x0 p) i k') (Fin.ext (Nat.zero_add _))

theorem pay4_apply (i j : Fin 20) : k0_pay4 (F := Ideal) (ix2 i j) = delta i j := by
  unfold k0_pay4
  exact eye_apply _ _ _ i j

theorem pay5_apply (p : Fin 1024) (i j : Fin 20) : k0_pay5 x0 (ix3 p i j) = offDiag (adj (graph x0 p)) i j := by
  unfold k0_pay5
  show k0_pay1 x0 (ix3 p i j) * broadcastTo S1024x20x20 (shapeCast S1x20x20 _ _) _ (ix3 p i j) = _
  rw [spreadMat_apply, pay1_apply]
  show _ * (_ - k0_pay4 (F := Ideal) (ix2 i j)) = _
  rw [pay4_apply]
  rfl

theorem pay6_apply (p : Fin 1024) (u w : Fin 1) : k0_pay6 x0 (ix3 p u w) = tr (adj (graph x0 p)) := by
  unfold k0_pay6
  refine (sumAll_apply (k0_pay1 x0) _ _ _ _ _ _ _ _ _ p u w).trans ?_
  unfold tr
  refine Finset.sum_congr rfl fun i _ => ?_
  have : ∀ j : Fin 20, k0_pay1 x0 (ix3 p i j) * broadcastTo S1024x20x20 (shapeCast S1x20x20 (k0_pay4 (F := Ideal)) shapeCasts_S20x20_S1x20x20) broadcasts_S1x20x20_S1024x20x20 (ix3 p i j)
      = if i = j then adj (graph x0 p) i j else 0 := fun j => by
    rw [spreadMat_apply, pay1_apply, pay4_apply]
    unfold delta
    by_cases hij : i = j
    · rw [if_pos hij, if_pos hij, mul_one]
    · rw [if_neg hij, if_neg hij, mul_zero]
  rw [Finset.sum_congr rfl fun j _ => this j, Finset.sum_ite_eq]
  simp

theorem pay7_eq : k0_pay7 x1 = x1 := by
  unfold k0_pay7
  exact shapeCast_self x1 _

/-! ## The neighbour sum, accumulated one product at a time -/

section Chain
variable (v2 : FVec Ideal S1024x20x40 .f32) (v15 : FVec Ideal S1024x20x20 .f32)

/-- The terms of the neighbour sum at (p, i, v), as a function of the term's number. -/
abbrev nt (p : Fin 1024) (i : Fin 20) (v : Fin 40) : ℕ → EReal := nterm (fun k => v15 (ix3 p i k)) (fun k => v2 (ix3 p k v))

theorem pay10_apply (v43 v48 : FVec Ideal S1024x20x40 .f32) (p : Fin 1024) (i : Fin 20) (v : Fin 40)
    (h43 : v43 (ix3 p i v) = accum (nt v2 v15 p i v) 3) (h48 : v48 (ix3 p i v) = nt v2 v15 p i v 3) :
    k0_pay10 v2 v15 v43 v48 (ix3 p i v) = accum (nt v2 v15 p i v) 13 := by
  simp only [k0_pay10, addf_apply, term_apply]
  rw [h43, h48]
  rfl

theorem pay11_apply (p : Fin 1024) (i : Fin 20) (v : Fin 40) : k0_pay11 v2 v15 (ix3 p i v) = nt v2 v15 p i v 13 := by
  simp only [k0_pay11, term_apply]

end Chain

theorem pay8_apply (p : Fin 1024) (i : Fin 20) (v : Fin 40) :
    k0_pay8 x0 (ix3 p i v) = accum (nt (k0_pay2 x0) (k0_pay5 x0) p i v) 3 := by
  simp only [k0_pay8, addf_apply, term_apply]
  rfl

theorem pay9_apply (p : Fin 1024) (i : Fin 20) (v : Fin 40) :
    k0_pay9 x0 (ix3 p i v) = nt (k0_pay2 x0) (k0_pay5 x0) p i v 3 := by
  simp only [k0_pay9, term_apply]

/-! ## A round's tail -/

section Round
variable (v3 : FVec Ideal S1024x20x10 .f32) (v22 : FVec Ideal S1024x1x1 .f32) (v24 : FVec Ideal S80x30 .f32)

/-- A round's value at (p, i, v) from the aggregate's row `agg` and the features H: the kept column when v < 10, otherwise
    (Σᵤ agg(u) · W↑(u, v−10) + Σᵤ H(p,i,u) · W↓(u, v−10)) / t(p). -/
def roundVal (H : FVec Ideal S1024x20x40 .f32) (agg : Fin 40 → EReal) (p : Fin 1024) (i : Fin 20) (v : Fin 40) : EReal :=
  if hv : v.val < 10 then v3 (ix3 p i ⟨v.val, hv⟩)
  else Ideal.div
    ((∑ u : Fin 40, agg u * wUp v24 u (⟨v.val - 10, by have := v.isLt; omega⟩ : Fin 30))
      + ∑ u : Fin 40, H (ix3 p i u) * wLo v24 u (⟨v.val - 10, by have := v.isLt; omega⟩ : Fin 30))
    (v22 (ix3 p (0 : Fin 1) (0 : Fin 1)))

variable (v2 : FVec Ideal S1024x20x40 .f32) (v15 : FVec Ideal S1024x20x20 .f32)

/-- The first round's tail: the last seven products are added to the thirteen already accumulated, and the tail applied. -/
theorem pay12_apply (v103 v108 : FVec Ideal S1024x20x40 .f32) (p : Fin 1024) (i : Fin 20) (v : Fin 40)
    (h103 : ∀ u : Fin 40, v103 (ix3 p i u) = accum (nt v2 v15 p i u) 13)
    (h108 : ∀ u : Fin 40, v108 (ix3 p i u) = nt v2 v15 p i u 13) :
    k0_pay12 v2 v3 v15 v22 v24 v103 v108 (ix3 p i v)
      = roundVal v3 v22 v24 v2 (fun u => ∑ j : Fin 20, v15 (ix3 p i j) * v2 (ix3 p j u)) p i v := by
  refine (roundTail_apply _ v2 v3 v22 v24 concatenates_S1024x20x40_S1024x20x40_S1024x20x80_d2 shapeCasts_S1024x20x80_S20480x80
    Facts₀.dot_S20480x80_S80x30_S20480x30_1_0_0_1_n_n_wf (some .fp32) shapeCasts_S20480x30_S1024x20x30
    broadcasts_S1024x1x1_S1024x20x30 concatenates_S1024x20x10_S1024x20x30_S1024x20x40_d2 p i v).trans ?_
  unfold roundVal
  by_cases hv : v.val < 10
  · rw [dif_pos hv, dif_pos hv]
  · rw [dif_neg hv, dif_neg hv]
    refine congrArg (fun s => Ideal.div (s + _) _) ?_
    refine Finset.sum_congr rfl fun u _ => congrArg (· * _) ?_
    simp only [addf_apply, term_apply]
    rw [h103 u, h108 u]
    exact accum_nterm _ _

/-- The second round's first two products, over the first round's features. -/
theorem pay13_apply (v103 v108 : FVec Ideal S1024x20x40 .f32) (p : Fin 1024) (i : Fin 20) (v : Fin 40) :
    k0_pay13 v2 v3 v15 v22 v24 v103 v108 (ix3 p i v) = accum (nt (k0_pay12 v2 v3 v15 v22 v24 v103 v108) v15 p i v) 2 := by
  simp only [k0_pay13, addf_apply, term_apply]
  rfl

/-- The second round's products 2‥11 added to the first two. -/
theorem pay15_apply (v152 v165 : FVec Ideal S1024x20x40 .f32) (p : Fin 1024) (i : Fin 20) (v : Fin 40)
    (h165 : v165 (ix3 p i v) = accum (nt v152 v15 p i v) 2) :
    k0_pay15 v15 v152 v165 (k0_pay14 v15) (ix3 p i v) = accum (nt v152 v15 p i v) 12 := by
  simp only [k0_pay15, k0_pay14, addf_apply, term_apply]
  rw [h165]
  rfl

/-- The second round's tail: the last eight products added to the twelve already accumulated, and the tail applied. -/
theorem pay17_apply (v152 v225 : FVec Ideal S1024x20x40 .f32) (p : Fin 1024) (i : Fin 20) (v : Fin 40)
    (h225 : ∀ u : Fin 40, v225 (ix3 p i u) = accum (nt v152 v15 p i u) 12) :
    k0_pay17 v3 v15 v22 v24 v152 v225 (k0_pay16 v15) (ix3 p i v)
      = roundVal v3 v22 v24 v152 (fun u => ∑ j : Fin 20, v15 (ix3 p i j) * v152 (ix3 p j u)) p i v := by
  refine (roundTail_apply _ v152 v3 v22 v24 concatenates_S1024x20x40_S1024x20x40_S1024x20x80_d2 shapeCasts_S1024x20x80_S20480x80
    Facts₀.dot_S20480x80_S80x30_S20480x30_1_0_0_1_n_n_wf (some .fp32) shapeCasts_S20480x30_S1024x20x30
    broadcasts_S1024x1x1_S1024x20x30 concatenates_S1024x20x10_S1024x20x30_S1024x20x40_d2 p i v).trans ?_
  unfold roundVal
  by_cases hv : v.val < 10
  · rw [dif_pos hv, dif_pos hv]
  · rw [dif_neg hv, dif_neg hv]
    refine congrArg (fun s => Ideal.div (s + _) _) ?_
    refine Finset.sum_congr rfl fun u _ => congrArg (· * _) ?_
    simp only [k0_pay16, addf_apply, term_apply]
    rw [h225 u]
    exact accum_nterm _ _

end Round

/-! ## The two rounds composed -/

/-- The features after the first round, as the body computes them from the loaded block and weights. -/
def feat1 : FVec Ideal S1024x20x40 .f32 :=
  k0_pay12 (k0_pay2 x0) (k0_pay3 x0) (k0_pay5 x0) (k0_pay6 x0) (k0_pay7 x1)
    (k0_pay10 (k0_pay2 x0) (k0_pay5 x0) (k0_pay8 x0) (k0_pay9 x0)) (k0_pay11 (k0_pay2 x0) (k0_pay5 x0))

/-- The features after the second round: the value the body stores in columns 20‥59. -/
def feat2K : FVec Ideal S1024x20x40 .f32 :=
  k0_pay17 (k0_pay3 x0) (k0_pay5 x0) (k0_pay6 x0) (k0_pay7 x1) (feat1 x0 x1)
    (k0_pay15 (k0_pay5 x0) (feat1 x0 x1)
      (k0_pay13 (k0_pay2 x0) (k0_pay3 x0) (k0_pay5 x0) (k0_pay6 x0) (k0_pay7 x1)
        (k0_pay10 (k0_pay2 x0) (k0_pay5 x0) (k0_pay8 x0) (k0_pay9 x0)) (k0_pay11 (k0_pay2 x0) (k0_pay5 x0)))
      (k0_pay14 (k0_pay5 x0)))
    (k0_pay16 (k0_pay5 x0))

/-- A round's value, with the block's own slices, scalar and weights, is the specification's round. -/
theorem roundVal_eq (H : FVec Ideal S1024x20x40 .f32) (Hs : Fin 20 → Fin 40 → EReal) (p : Fin 1024) (i : Fin 20) (v : Fin 40)
    (hH : ∀ (a : Fin 20) (u : Fin 40), H (ix3 p a u) = Hs a u) :
    roundVal (k0_pay3 x0) (k0_pay6 x0) (k0_pay7 x1) H (fun u => ∑ j : Fin 20, k0_pay5 x0 (ix3 p i j) * H (ix3 p j u)) p i v
      = Cert.MsgPass.round (offDiag (adj (graph x0 p))) (tr (adj (graph x0 p))) (wUp x1) (wLo x1) (feat (graph x0 p)) Hs i v := by
  unfold roundVal Cert.MsgPass.round mix gather
  by_cases hv : v.val < 10
  · rw [dif_pos hv, dif_pos hv, pay3_apply]
  · rw [dif_neg hv, dif_neg hv, pay6_apply, pay7_eq]
    simp only [pay5_apply, hH]

theorem feat1_apply (p : Fin 1024) (i : Fin 20) (v : Fin 40) :
    feat1 x0 x1 (ix3 p i v)
      = Cert.MsgPass.round (offDiag (adj (graph x0 p))) (tr (adj (graph x0 p))) (wUp x1) (wLo x1) (feat (graph x0 p)) (feat (graph x0 p)) i v := by
  unfold feat1
  rw [pay12_apply _ _ _ _ _ _ _ p i v
    (fun u => pay10_apply _ _ _ _ p i u (pay8_apply x0 p i u) (pay9_apply x0 p i u)) (fun u => pay11_apply _ _ p i u)]
  exact roundVal_eq x0 x1 (k0_pay2 x0) (feat (graph x0 p)) p i v (fun a u => pay2_apply x0 p a u)

/-- THE STORED FEATURES: at (p, i, v), the specification's features after two rounds of graph p. -/
theorem feat2K_apply (p : Fin 1024) (i : Fin 20) (v : Fin 40) :
    feat2K x0 x1 (ix3 p i v) = feat2 (graph x0 p) (wUp x1) (wLo x1) i v := by
  unfold feat2K
  refine (pay17_apply (k0_pay3 x0) (k0_pay6 x0) (k0_pay7 x1) (k0_pay5 x0) (feat1 x0 x1) _ p i v
    (fun u => pay15_apply (k0_pay5 x0) (feat1 x0 x1) _ p i u (pay13_apply _ _ _ _ _ _ _ p i u))).trans ?_
  exact roundVal_eq x0 x1 (feat1 x0 x1) _ p i v (fun a u => feat1_apply x0 x1 p a u)

end Cert.KernelIdeal.BlockValue

end
-- ==== Proof.KernelWeights.lean ====
/-
  The kernel program's one host operation before its region: the two weight matrices stacked into one [80, 30]
  matrix, rows 0 to 39 the first and rows 40 to 79 the second. The contents the region finds at that buffer are the
  join of the two arguments' launch contents along the rows; read at a row of the upper half they are the first
  matrix's entry, at a row of the lower half the second's.
-/
import proofs.«124149_j62792421868061_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Weights

open Cert.KernelIdeal Cert.KernelIdeal.Gen Idealize.ShloMosaic Idealize.ShloMosaic.TcCoe Idealize.SL.Sem
  Idealize.ShloMosaic.StableHlo Idealize.ShloMosaic.ValueIdx

variable {F : FTy → Type} [FloatOps F]
variable (m : (ℓ : Loc nD τ sig) → Buf (Elt F) ℓ) (c : Dev nD)

/-- The stacked weights as the region finds them: the join of the two weight arguments along the rows. -/
theorem V_main_v0 :
    (V m c main_v0 : (⟨S80x30, .f32⟩ : BufTy).Contents (Elt F))
      = concatenate S80x30 0
          [⟨S40x30, (m ((c : Thread nD τ).loc main_arg1) : (⟨S40x30, .f32⟩ : BufTy).Contents (Elt F))⟩,
           ⟨S40x30, (m ((c : Thread nD τ).loc main_arg2) : (⟨S40x30, .f32⟩ : BufTy).Contents (Elt F))⟩]
          concatenates_S40x30_S40x30_S80x30_d0 := by
  dsimp only [Gen.V, Gen.hostOps0]
  after_results

/-- A row of the upper half of the stacked weights is the first weight matrix's row. -/
theorem stacked_up (u : Fin 40) (q : Fin 30) :
    (V m c main_v0 : (⟨S80x30, .f32⟩ : BufTy).Contents (Elt F)) (ix2 (⟨u.val, by have := u.isLt; omega⟩ : Fin 80) q)
      = (m ((c : Thread nD τ).loc main_arg1) : (⟨S40x30, .f32⟩ : BufTy).Contents (Elt F)) (ix2 u q) :=
  (congrFun (V_main_v0 m c) _).trans
    (concatenate_pair_apply_left (t := S80x30) (s₁ := S40x30) (s₂ := S40x30) 0 _ _ _
      (ix2 (⟨u.val, by have := u.isLt; omega⟩ : Fin 80) q) rfl (ix2 u q) (fun a => match a with
      | ⟨0, _⟩ => rfl
      | ⟨1, _⟩ => rfl))

/-- A row of the lower half of the stacked weights is the second weight matrix's row. -/
theorem stacked_lo (u : Fin 40) (q : Fin 30) :
    (V m c main_v0 : (⟨S80x30, .f32⟩ : BufTy).Contents (Elt F)) (ix2 (⟨40 + u.val, by have := u.isLt; omega⟩ : Fin 80) q)
      = (m ((c : Thread nD τ).loc main_arg2) : (⟨S40x30, .f32⟩ : BufTy).Contents (Elt F)) (ix2 u q) :=
  (congrFun (V_main_v0 m c) _).trans
    (concatenate_pair_apply_right (t := S80x30) (s₁ := S40x30) (s₂ := S40x30) 0 _ _ _
      (ix2 (⟨40 + u.val, by have := u.isLt; omega⟩ : Fin 80) q) rfl rfl (ix2 u q) (fun a ha => match a, ha with
      | ⟨0, _⟩, ha => absurd rfl ha
      | ⟨1, _⟩, _ => rfl) (by show u.val + 40 = 40 + u.val; omega))

end Cert.KernelIdeal.Weights

end
-- ==== Proof.KernelCover.lean ====
/-
  The kernel's output window tiles its array: the grid has 128 points, point t writes back the block of 1024 graphs
  starting at graph 1024 t, whole along the other two axes; so every index of the [131072, 20, 60] result lies in the
  block of the point (its graph number divided by 1024), and every point writes its block back.
-/
import proofs.«124149_j62792421868061_2_alg».proof.Proof.Gen.KernelIdeal.Value
import Idealize.ShloMosaic.Lib.Pipeline.Value

set_option maxRecDepth 16384

noncomputable section

namespace Cert.KernelIdeal.Cover

open Cert.KernelIdeal Cert.KernelIdeal.Gen Idealize.ShloMosaic Idealize.ShloMosaic.TcCoe Idealize.SL.Sem

/-- The printed index maps, decided over the grid: the two batch windows sit at block t of the batch axis and block 0
    of the other axes, the weights' window at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- An index of the result array is in point t's block iff each coordinate is in the block's range on its axis. -/
theorem mem_blk (t : Fin cfg0.N) (i : S131072x20x60.Idx) :
    i ∈ ((cfg0.win 2).blk t).view.set ↔ ∀ a : Fin 3, win0_2.index t a * S1024x20x60.size a ≤ (i a).val ∧ (i a).val < win0_2.index t a * S1024x20x60.size a + S1024x20x60.size a := by
  show i ∈ ((View.whole main_v1).slice (win0_2.rect t)).set ↔ _
  rw [View.set_slice_whole, Rect.mem_set_unit]
  exact Iff.rfl

/-- Every index of the result array is in the block of some point that writes back. -/
theorem cover : ∀ i : S131072x20x60.Idx, ∃ t : Fin cfg0.N, (cfg0.win 2).flush t = true ∧ i ∈ ((cfg0.win 2).blk t).view.set := by
  intro i
  have hN : cfg0.N = 128 := N_0
  have hi0 : (i 0).val < 131072 := (i 0).isLt
  have hi1 : (i 1).val < 20 := (i 1).isLt
  have hi2 : (i 2).val < 60 := (i 2).isLt
  obtain ⟨t, ht⟩ : ∃ t : Fin cfg0.N, t.val = (i 0).val / 1024 := ⟨⟨(i 0).val / 1024, by rw [hN]; omega⟩, rfl⟩
  refine ⟨t, flush0_2 t, ?_⟩
  rw [mem_blk]
  obtain ⟨-, -, -, -, -, e0, e1, e2⟩ := idx_facts t
  intro a
  match a with
  | ⟨0, _⟩ =>
    show win0_2.index t (0 : Fin 3) * 1024 ≤ (i 0).val ∧ (i 0).val < win0_2.index t (0 : Fin 3) * 1024 + 1024
    omega
  | ⟨1, _⟩ =>
    show win0_2.index t (1 : Fin 3) * 20 ≤ (i 1).val ∧ (i 1).val < win0_2.index t (1 : Fin 3) * 20 + 20
    omega
  | ⟨2, _⟩ =>
    show win0_2.index t (2 : Fin 3) * 60 ≤ (i 2).val ∧ (i 2).val < win0_2.index t (2 : Fin 3) * 60 + 60
    omega

end Cert.KernelIdeal.Cover

end
-- ==== Proof.KernelArray.lean ====
/-
  From what one grid point leaves in the output's staging buffer to the whole result array.

  The body stores twice into the [1024, 20, 60] staging buffer: the adjacency columns M into columns 0‥19 and the
  features after two rounds into columns 20‥59. The two rectangles tile the buffer, so what the buffer holds after the
  body is ONE function of its index: graph p's result table at (i, j). Grid point t stages rows 1024·t ‥ 1024·t + 1023
  of the batch and the whole stacked weights, and writes its buffer back to the same rows; the 128 points' blocks tile
  the batch, so the result array is the specification's function of the three argument arrays.
-/
import proofs.«124149_j62792421868061_2_alg».proof.Proof.Gen.KernelIdeal.Value
import proofs.«124149_j62792421868061_2_alg».proof.Proof.KernelValue
import proofs.«124149_j62792421868061_2_alg».proof.Proof.KernelWeights
import proofs.«124149_j62792421868061_2_alg».proof.Proof.KernelCover
import Idealize.ShloMosaic.Lib.Pipeline.Value
import Idealize.ShloMosaic.Lib.Tactic

noncomputable section

namespace Cert.KernelIdeal.ArrayValue

open Cert.KernelIdeal Cert.KernelIdeal.Gen Cert.KernelIdeal.BlockValue
open Idealize.ShloMosaic Idealize.ShloMosaic.TcCoe Idealize.ShloMosaic.ValueIdx Idealize.SL.Sem
open Idealize.ShloMosaic.Pipeline (Dat)
open Cert.MsgPass

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the body leaves in the output's staging buffer -/

/-- The body's two stores, last first: the features after two rounds into columns 20‥59, the adjacency into 0‥19. -/
theorem pieces_eq (c : Dev nD) (i : grid0.Coords) (a1 : Memref sig .tc .vmem S1024x20x60 .f32) (h1 : a1.IsWhole)
    (a2 : Memref sig .tc .vmem S80x30 .f32) (h2 : a2.IsWhole) (a3 : Memref sig .tc .vmem S1024x20x60 .f32) (h3 : a3.IsWhole)
    (x0 : Vec Ideal S1024x20x60 .f32) (x1 : Vec Ideal S80x30 .f32) :
    (kernelRun0_A (F := Ideal) c i a1 h1 a2 h2 a3 h3 x0 x1).1
      = [⟨Rect.unit ![0, 0, 20] S1024x20x40.size inb_S1024x20x60_S1024x20x40_0_0_20, feat2K x0 x1⟩,
         ⟨Rect.unit ![0, 0, 0] S1024x20x20.size inb_S1024x20x60_S1024x20x20_0_0_0, k0_pay1 x0⟩] := by
  unfold kernelRun0_A
  dsimp only
  sl_unfold_words
  simp only [View.readAt_eq_ld, h1.read_unread, h2.read_unread, View.ld_unit_zero (S := S1024x20x60) hz3,
    View.ld_unit_zero (S := S80x30) hz2]
  rfl

/-- One block's result: at (p, i, j), graph p's result table at (i, j). -/
def blockOut (x0 : Vec Ideal S1024x20x60 .f32) (x1 : Vec Ideal S80x30 .f32) : S1024x20x60.Idx → EReal :=
  fun y => graphOut (graph x0 (y 0)) (wUp x1) (wLo x1) (y 1) (y 2)

theorem blockOut_ix3 (x0 : Vec Ideal S1024x20x60 .f32) (x1 : Vec Ideal S80x30 .f32) (p : Fin 1024) (a : Fin 20) (j : Fin 60) :
    blockOut x0 x1 (ix3 p a j) = graphOut (graph x0 p) (wUp x1) (wLo x1) a j := rfl

/-- After the body the output's staging buffer holds the block's result, whatever it held before. -/
theorem out_eq (c : Dev nD) (i : grid0.Coords) (a1 : Memref sig .tc .vmem S1024x20x60 .f32) (h1 : a1.IsWhole)
    (a2 : Memref sig .tc .vmem S80x30 .f32) (h2 : a2.IsWhole) (a3 : Memref sig .tc .vmem S1024x20x60 .f32) (h3 : a3.IsWhole)
    (x0 : Vec Ideal S1024x20x60 .f32) (x1 : Vec Ideal S80x30 .f32) :
    out0_A_2 (F := Ideal) c i a1 h1 a2 h2 a3 h3 x0 x1 = blockOut x0 x1 := by
  unfold out0_A_2
  rw [View.read_writes_eq_canon _ _ _ (cover0_A_2 c i a1 h1 a2 h2 a3 h3 x0 x1)]
  funext y
  refine View.canon_apply_of_pieces (blockOut x0 x1) _ ?_ y (cover0_A_2 c i a1 h1 a2 h2 a3 h3 x0 x1 y)
  rw [pieces_eq]
  intro pc hpc x
  rcases List.mem_cons.mp hpc with rfl | hpc
  · obtain ⟨p, a, v, rfl⟩ : ∃ (p : Fin 1024) (a : Fin 20) (v : Fin 40), x = ix3 p a v := ⟨x 0, x 1, x 2, eq_ix3 x⟩
    have he : (Rect.unit (s := S1024x20x60) ![0, 0, 20] S1024x20x40.size inb_S1024x20x60_S1024x20x40_0_0_20).emb (ix3 p a v)
        = ix3 p a (⟨20 + v.val, by have := v.isLt; omega⟩ : Fin 60) := by
      funext ax; apply Fin.ext
      rw [Rect.emb_apply]
      match ax with
      | ⟨0, _⟩ => show 0 + 1 * p.val = p.val; omega
      | ⟨1, _⟩ => show 0 + 1 * a.val = a.val; omega
      | ⟨2, _⟩ => show 20 + 1 * v.val = 20 + v.val; omega
    show feat2K x0 x1 (ix3 p a v) = blockOut x0 x1 _
    rw [he, blockOut_ix3, feat2K_apply]
    unfold graphOut
    rw [dif_neg (show ¬ (20 + v.val < 20) by omega)]
    exact congrArg (feat2 (graph x0 p) (wUp x1) (wLo x1) a) (Fin.ext (by show v.val = 20 + v.val - 20; omega))
  · obtain rfl := List.mem_singleton.mp hpc
    obtain ⟨p, a, j, rfl⟩ : ∃ (p : Fin 1024) (a : Fin 20) (j : Fin 20), x = ix3 p a j := ⟨x 0, x 1, x 2, eq_ix3 x⟩
    have he : (Rect.unit (s := S1024x20x60) ![0, 0, 0] S1024x20x20.size inb_S1024x20x60_S1024x20x20_0_0_0).emb (ix3 p a j)
        = ix3 p a (⟨j.val, by have := j.isLt; omega⟩ : Fin 60) := by
      funext ax; apply Fin.ext
      rw [Rect.emb_apply]
      match ax with
      | ⟨0, _⟩ => show 0 + 1 * p.val = p.val; omega
      | ⟨1, _⟩ => show 0 + 1 * a.val = a.val; omega
      | ⟨2, _⟩ => show 0 + 1 * j.val = j.val; omega
    show k0_pay1 x0 (ix3 p a j) = blockOut x0 x1 _
    rw [he, blockOut_ix3, pay1_apply]
    unfold graphOut adj
    rw [dif_pos (show j.val < 20 from j.isLt)]

/-! ## A grid point's blocks are rows of the arrays -/

variable (m : (ℓ : Loc nD τ sig) → Buf (Elt Ideal) ℓ) (ρ : Dev nD → PrngReg)

/-- Row p of point t's input block is batch row 1024·t + p of the first argument. -/
theorem iblk0_apply (c : Dev nD) (t : Fin cfg0.N) (p : Fin 1024) (a : Fin 20) (b : Fin 60) :
    iblk m c 0 t (ix3 p a b)
      = m ((c : Thread nD τ).loc main_arg0)
          (ix3 (⟨t.val * 1024 + p.val, by have hN : cfg0.N = 128 := N_0; have := t.isLt; have := p.isLt; omega⟩ : Fin 131072) a b) := by
  obtain ⟨e0, e1, e2, -⟩ := Cert.KernelIdeal.Cover.idx_facts t
  show V m c main_arg0 (((cfg0.win 0).blk t).view.emb (ix3 p a b)) = _
  rw [V_main_arg0]
  refine congrArg _ (funext fun ax => Fin.ext ?_)
  match ax with
  | ⟨0, _⟩ => show win0_0.index t (0 : Fin 3) * 1024 + 1 * p.val = t.val * 1024 + p.val; rw [e0]; omega
  | ⟨1, _⟩ => show win0_0.index t (1 : Fin 3) * 20 + 1 * a.val = a.val; rw [e1]; omega
  | ⟨2, _⟩ => show win0_0.index t (2 : Fin 3) * 60 + 1 * b.val = b.val; rw [e2]; omega

/-- Every point stages the whole stacked weights. -/
theorem iblk1_apply (c : Dev nD) (t : Fin cfg0.N) (k : Fin 80) (q : Fin 30) :
    iblk m c 1 t (ix2 k q) = V m c main_v0 (ix2 k q) := by
  obtain ⟨-, -, -, e3, e4, -⟩ := Cert.KernelIdeal.Cover.idx_facts t
  show V m c main_v0 (((cfg0.win 1).blk t).view.emb (ix2 k q)) = _
  refine congrArg _ (funext fun ax => Fin.ext ?_)
  match ax with
  | ⟨0, _⟩ => show win0_1.index t (0 : Fin 2) * 80 + 1 * k.val = k.val; rw [e3]; omega
  | ⟨1, _⟩ => show win0_1.index t (1 : Fin 2) * 30 + 1 * q.val = q.val; rw [e4]; omega

/-- Row p of point t's output block is batch row 1024·t + p of the result. -/
theorem oblk_emb (t : Fin cfg0.N) (p : Fin 1024) (a : Fin 20) (j : Fin 60) :
    ((cfg0.win 2).blk t).view.emb (ix3 p a j)
      = ix3 (⟨t.val * 1024 + p.val, by have hN : cfg0.N = 128 := N_0; have := t.isLt; have := p.isLt; omega⟩ : Fin 131072) a j := by
  obtain ⟨-, -, -, -, -, e5, e6, e7⟩ := Cert.KernelIdeal.Cover.idx_facts t
  refine funext fun ax => Fin.ext ?_
  match ax with
  | ⟨0, _⟩ => show win0_2.index t (0 : Fin 3) * 1024 + 1 * p.val = t.val * 1024 + p.val; rw [e5]; omega
  | ⟨1, _⟩ => show win0_2.index t (1 : Fin 3) * 20 + 1 * a.val = a.val; rw [e6]; omega
  | ⟨2, _⟩ => show win0_2.index t (2 : Fin 3) * 60 + 1 * j.val = j.val; rw [e7]; omega

/-! ## The result array -/

/-- WHAT POINT t WRITES BACK is block t of the specification's function of the three argument arrays. -/
theorem flushed_eq (c : Dev nD) (t : Fin cfg0.N) :
    (dats m 0 c).flushed 2 t
      = ((cfg0.win 2).blk t).view.read (Elt Ideal)
          (G (m ((c : Thread nD τ).loc main_arg0)) (m ((c : Thread nD τ).loc main_arg1)) (m ((c : Thread nD τ).loc main_arg2))) := by
  rw [Cert.KernelIdeal.Value.flushed2_A,
    out_eq c (grid0.coords t) (ms0_0 t) (hs0_0 t) (ms0_1 t) (hs0_1 t) (ms0_2 t) (hs0_2 t) (iblk m c 0 t) (iblk m c 1 t)]
  funext y
  obtain ⟨p, a, j, rfl⟩ : ∃ (p : Fin 1024) (a : Fin 20) (j : Fin 60), y = ix3 p a j := ⟨y 0, y 1, y 2, eq_ix3 y⟩
  show blockOut (iblk m c 0 t) (iblk m c 1 t) (ix3 p a j)
    = G (m ((c : Thread nD τ).loc main_arg0)) (m ((c : Thread nD τ).loc main_arg1)) (m ((c : Thread nD τ).loc main_arg2))
        (((cfg0.win 2).blk t).view.emb (ix3 p a j))
  rw [oblk_emb, G_ix3, blockOut_ix3]
  have hX : graph (iblk m c 0 t) p = fun a' b' => m ((c : Thread nD τ).loc main_arg0)
      (ix3 (⟨t.val * 1024 + p.val, by have hN : cfg0.N = 128 := N_0; have := t.isLt; have := p.isLt; omega⟩ : Fin 131072) a' b') :=
    funext fun a' => funext fun b' => iblk0_apply m c t p a' b'
  have hU : wUp (iblk m c 1 t) = fun v q => m ((c : Thread nD τ).loc main_arg1) (ix2 v q) :=
    funext fun v => funext fun q => (iblk1_apply m c t _ q).trans (Cert.KernelIdeal.Weights.stacked_up m c v q)
  have hL : wLo (iblk m c 1 t) = fun v q => m ((c : Thread nD τ).loc main_arg2) (ix2 v q) :=
    funext fun v => funext fun q => (iblk1_apply m c t _ q).trans (Cert.KernelIdeal.Weights.stacked_lo m c v q)
  rw [hX, hU, hL]

/-- THE RESULT ARRAY after the run: the 128 blocks tile the batch, so it is the specification's function. -/
theorem final (c : Dev nD) :
    (dats m 0 c).arrAt 2 cfg0.N
      = G (m ((c : Thread nD τ).loc main_arg0)) (m ((c : Thread nD τ).loc main_arg1)) (m ((c : Thread nD τ).loc main_arg2)) :=
  (dats m 0 c).arrAt_eq_of_cover 2 _ (fun t _ => flushed_eq m c t) Cert.KernelIdeal.Cover.cover

/-- The kernel's run, read: the result at the specification's function of the arguments, the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.ArrayValue

end
-- ==== Proof.LibCatPair.lean ====
/-
  A two-operand concatenation as a plain function of its two operands.

  The join of two arrays along an axis is defined over a list of (shape, array) pairs; spelt as a function of the two
  arrays it can be rewritten under like any other operation (a rewriting pass does not descend into the dependent pairs
  of the list, so a line of host operations that joins two computed arrays is otherwise left half-evaluated). The two
  spellings are the same function by definition.
-/
import Idealize.ShloMosaic.PureOps.ShapeOps

noncomputable section

namespace Cert.LibCatPair

open Idealize.ShloMosaic

variable {α : Type}

/-- Two arrays joined along axis `a` of the result, as a function of the two arrays. -/
def pair {t s₁ s₂ : Shape} (a : Fin t.rank) (h : Shape.Concatenates [s₁, s₂] t a) (x₁ : s₁.Idx → α) (x₂ : s₂.Idx → α) :
    t.Idx → α :=
  concatenate t a [⟨s₁, x₁⟩, ⟨s₂, x₂⟩] h

/-- The list spelling is the function spelling. -/
theorem pair_def {t s₁ s₂ : Shape} (a : Fin t.rank) (h : Shape.Concatenates [s₁, s₂] t a) (x₁ : s₁.Idx → α)
    (x₂ : s₂.Idx → α) : concatenate t a [⟨s₁, x₁⟩, ⟨s₂, x₂⟩] h = pair a h x₁ x₂ := rfl

end Cert.LibCatPair

end
-- ==== Proof.RefRun.lean ====
/-
  The reference program's run, read back as ONE pure term of its three argument arrays.

  The program is a straight line of host operations once its two outlined functions (the trace of a batch of square
  matrices, which itself calls the masked select) are unfolded at their call sites: forty-five operations. Every weakly
  fair execution terminates, and the result buffer ends at the operations' composed term (result below) of the
  launch contents of the three arguments, which end unchanged.

  The term, by named parts, per graph b of the batch: mat = x[b, :, 0:20], val = x[b, :, 20:60], con = val[:, 0:10];
  eye the comparison of the two index grids, mask = 1 - eye, mat0 = mat * mask; tra = the sum over (i, j) of
  (eye ? mat : 0); one round maps v to the join of con with (mat0 · v · n + v · s) / tra; the result is the join of mat
  with two rounds applied to val.
-/
import proofs.«124149_j62792421868061_2_alg».proof.ReferenceIdeal
import proofs.«124149_j62792421868061_2_alg».proof.Proof.Gen.ReferenceIdeal
import Idealize.ShloMosaic.Lib.StableHlo.Run
import proofs.«124149_j62792421868061_2_alg».proof.Proof.LibCatPair

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.LibCatPair (pair)

variable {F : FTy → Type} [FloatOps F]

/-! ## The term -/

/-- The adjacency block: the first 20 columns of every row. -/
def mat (x : (⟨S131072x20x60, .f32⟩ : BufTy).Contents (Elt F)) : (⟨S131072x20x20, .f32⟩ : BufTy).Contents (Elt F) :=
  extractStridedSlice S131072x20x20 ![0, 0, 0] x slices_S131072x20x60_S131072x20x20_0_0_0

/-- The feature block: the last 40 columns of every row. -/
def val (x : (⟨S131072x20x60, .f32⟩ : BufTy).Contents (Elt F)) : (⟨S131072x20x40, .f32⟩ : BufTy).Contents (Elt F) :=
  extractStridedSlice S131072x20x40 ![0, 0, 20] x slices_S131072x20x60_S131072x20x40_0_0_20

/-- The constant features: the first 10 columns of the feature block. -/
def con (x : (⟨S131072x20x60, .f32⟩ : BufTy).Contents (Elt F)) : (⟨S131072x20x10, .f32⟩ : BufTy).Contents (Elt F) :=
  extractStridedSlice S131072x20x10 ![0, 0, 0] (val x) slices_S131072x20x40_S131072x20x10_0_0_0

/-- The diagonal test on the 20 by 20 grid: row index (plus zero) equal to column index. -/
def eye : (⟨S20x20, .i1⟩ : BufTy).Contents (Elt F) :=
  cmpi .eq (addi (iotaInDim S20x20 32 0) (broadcastInDim S20x20 ![] bcast_S_S20x20 (constantI S_ 32 0#32))) (iotaInDim S20x20 32 1)

/-- One minus the diagonal's indicator. -/
def mask : (⟨S20x20, .f32⟩ : BufTy).Contents (Elt F) :=
  subf (broadcastInDim S20x20 ![] bcast_S_S20x20 (constant S_ .f32 0x3F800000#32)) (uitofp .f32 (eye (F := F)))

/-- The adjacency with its diagonal zeroed. -/
def mat0 (x : (⟨S131072x20x60, .f32⟩ : BufTy).Contents (Elt F)) : (⟨S131072x20x20, .f32⟩ : BufTy).Contents (Elt F) :=
  mulf (mat x) (broadcastInDim S131072x20x20 ![0, 1, 2] bcast_S1x20x20_S131072x20x20_0_1_2
    (broadcastInDim S1x20x20 ![1, 2] bcast_S20x20_S1x20x20_1_2 (mask (F := F))))

/-- The adjacency on the diagonal, zero off it. -/
def diag (x : (⟨S131072x20x60, .f32⟩ : BufTy).Contents (Elt F)) : (⟨S131072x20x20, .f32⟩ : BufTy).Contents (Elt F) :=
  select (broadcastInDim S131072x20x20 ![1, 2] bcast_S20x20_S131072x20x20_1_2 (eye (F := F))) (mat x)
    (broadcastInDim S131072x20x20 ![] bcast_S_S131072x20x20 (constant S_ .f32 0x00000000#32))

/-- The trace of every graph's adjacency: the sum of diag over both matrix axes, from zero. -/
def tra (x : (⟨S131072x20x60, .f32⟩ : BufTy).Contents (Elt F)) : (⟨S131072, .f32⟩ : BufTy).Contents (Elt F) :=
  Host.reduceAdd (diag x) (constant S_ .f32 0x00000000#32) reducesTo_S131072x20x20_S131072_d1_2 h_S_

/-- The trace laid out as a [B, 1, 1] array. -/
def tra3 (x : (⟨S131072x20x60, .f32⟩ : BufTy).Contents (Elt F)) : (⟨S131072x1x1, .f32⟩ : BufTy).Contents (Elt F) :=
  broadcastInDim S131072x1x1 ![0] bcast_S131072_S131072x1x1_0 (tra x)

/-- The new variable features of one round: (mat0 · v · n + v · s) / tra. -/
def var (x : (⟨S131072x20x60, .f32⟩ : BufTy).Contents (Elt F)) (n s : (⟨S40x30, .f32⟩ : BufTy).Contents (Elt F))
    (v : (⟨S131072x20x40, .f32⟩ : BufTy).Contents (Elt F)) : (⟨S131072x20x30, .f32⟩ : BufTy).Contents (Elt F) :=
  Host.divf
    (addf
      (Host.dotGeneral dot_S131072x20x40_S40x30_S131072x20x30_2_0_01_1_n_n none
        (Host.dotGeneral dot_S131072x20x20_S131072x20x40_S131072x20x40_2_1_1_2_0_0 none (mat0 x) v) n)
      (Host.dotGeneral dot_S131072x20x40_S40x30_S131072x20x30_2_0_01_1_n_n none v s))
    (broadcastInDim S131072x20x30 ![0, 1, 2] bcast_S131072x1x1_S131072x20x30_0_1_2 (tra3 x))

/-- One round: the constant features joined with the new variable features. -/
def round (x : (⟨S131072x20x60, .f32⟩ : BufTy).Contents (Elt F)) (n s : (⟨S40x30, .f32⟩ : BufTy).Contents (Elt F))
    (v : (⟨S131072x20x40, .f32⟩ : BufTy).Contents (Elt F)) : (⟨S131072x20x40, .f32⟩ : BufTy).Contents (Elt F) :=
  pair (t := S131072x20x40) 2 concatenates_S131072x20x10_S131072x20x30_S131072x20x40_d2 (con x) (var x n s v)

/-- The whole program: the adjacency joined with two rounds applied to the features. -/
def result (x : (⟨S131072x20x60, .f32⟩ : BufTy).Contents (Elt F)) (n s : (⟨S40x30, .f32⟩ : BufTy).Contents (Elt F)) :
    (⟨S131072x20x60, .f32⟩ : BufTy).Contents (Elt F) :=
  pair (t := S131072x20x60) 2 concatenates_S131072x20x20_S131072x20x40_S131072x20x60_d2 (mat x)
    (round x n s (round x n s (val x)))

/-! ## The operations -/

/-- The program's 45 host operations in order: 16 of its own, the trace function's 12 (the masked select's 2
    among them, at the call inside it) over the call's buffers, then 17 of its own. -/
abbrev ops : List (HloOp τ sig (Elt F)) :=
  [ unary main_arg0 main_v0 ((extractStridedSlice S131072x20x20 ![0, 0, 0] · slices_S131072x20x60_S131072x20x20_0_0_0) : (⟨S131072x20x60, .f32⟩ : BufTy).Contents (Elt F) → (⟨S131072x20x20, .f32⟩ : BufTy).Contents (Elt F)),
    unary main_arg0 main_v1 ((extractStridedSlice S131072x20x40 ![0, 0, 20] · slices_S131072x20x60_S131072x20x40_0_0_20) : (⟨S131072x20x60, .f32⟩ : BufTy).Contents (Elt F) → (⟨S131072x20x40, .f32⟩ : BufTy).Contents (Elt F)),
    unary main_v1 main_v2 ((extractStridedSlice S131072x20x10 ![0, 0, 0] · slices_S131072x20x40_S131072x20x10_0_0_0) : (⟨S131072x20x40, .f32⟩ : BufTy).Contents (Elt F) → (⟨S131072x20x10, .f32⟩ : BufTy).Contents (Elt F)),
    nullary main_v3 (iotaInDim S20x20 32 0),
    nullary main_v4 (iotaInDim S20x20 32 1),
    nullary main_c (constantI S_ 32 0#32),
    unary main_c main_v5 (broadcastInDim S20x20 ![] bcast_S_S20x20 : (⟨S_, .i32⟩ : BufTy).Contents (Elt F) → (⟨S20x20, .i32⟩ : BufTy).Contents (Elt F)),
    binary main_v3 main_v5 main_v6 (addi : (⟨S20x20, .i32⟩ : BufTy).Contents (Elt F) → (⟨S20x20, .i32⟩ : BufTy).Contents (Elt F) → (⟨S20x20, .i32⟩ : BufTy).Contents (Elt F)),
    binary main_v6 main_v4 main_v7 (cmpi .eq : (⟨S20x20, .i32⟩ : BufTy).Contents (Elt F) → (⟨S20x20, .i32⟩ : BufTy).Contents (Elt F) → (⟨S20x20, .i1⟩ : BufTy).Contents (Elt F)),
    unary main_v7 main_v8 (uitofp .f32 : (⟨S20x20, .i1⟩ : BufTy).Contents (Elt F) → (⟨S20x20, .f32⟩ : BufTy).Contents (Elt F)),
    nullary main_cst (constant S_ .f32 0x3F800000#32),
    unary main_cst main_v9 (broadcastInDim S20x20 ![] bcast_S_S20x20 : (⟨S_, .f32⟩ : BufTy).Contents (Elt F) → (⟨S20x20, .f32⟩ : BufTy).Contents (Elt F)),
    binary main_v9 main_v8 main_v10 (subf : (⟨S20x20, .f32⟩ : BufTy).Contents (Elt F) → (⟨S20x20, .f32⟩ : BufTy).Contents (Elt F) → (⟨S20x20, .f32⟩ : BufTy).Contents (Elt F)),
    unary main_v10 main_v11 (broadcastInDim S1x20x20 ![1, 2] bcast_S20x20_S1x20x20_1_2 : (⟨S20x20, .f32⟩ : BufTy).Contents (Elt F) → (⟨S1x20x20, .f32⟩ : BufTy).Contents (Elt F)),
    unary main_v11 main_v12 (broadcastInDim S131072x20x20 ![0, 1, 2] bcast_S1x20x20_S131072x20x20_0_1_2 : (⟨S1x20x20, .f32⟩ : BufTy).Contents (Elt F) → (⟨S131072x20x20, .f32⟩ : BufTy).Contents (Elt F)),
    binary main_v0 main_v12 main_v13 (mulf : (⟨S131072x20x20, .f32⟩ : BufTy).Contents (Elt F) → (⟨S131072x20x20, .f32⟩ : BufTy).Contents (Elt F) → (⟨S131072x20x20, .f32⟩ : BufTy).Contents (Elt F)),
    TRef.nullary main_call0.v0 (iotaInDim S20x20 32 0),
    TRef.nullary main_call0.v1 (iotaInDim S20x20 32 1),
    TRef.nullary main_call0.c (constantI S_ 32 0#32),
    TRef.unary main_call0.c main_call0.v2 (broadcastInDim S20x20 ![] bcast_S_S20x20),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S131072x20x20 ![] bcast_S_S131072x20x20),
    TRef.unary main_call0.v4 main_call0.call0.v0 (broadcastInDim S131072x20x20 ![1, 2] bcast_S20x20_S131072x20x20_1_2),
    TRef.ternary main_call0.call0.v0 (.of main_v0) main_call0.v5 main_call0.call0.v1 select,
    TRef.nullary main_call0.cst_0 (constant S_ .f32 0x00000000#32),
    TRef.binary main_call0.call0.v1 main_call0.cst_0 main_call0.v7 (fun x v => Host.reduceAdd x v reducesTo_S131072x20x20_S131072_d1_2 h_S_),
    unary main_v14 main_v15 (broadcastInDim S131072x1x1 ![0] bcast_S131072_S131072x1x1_0 : (⟨S131072, .f32⟩ : BufTy).Contents (Elt F) → (⟨S131072x1x1, .f32⟩ : BufTy).Contents (Elt F)),
    binary main_v13 main_v1 main_v16 ((fun l r => Host.dotGeneral dot_S131072x20x20_S131072x20x40_S131072x20x40_2_1_1_2_0_0 none l r) : (⟨S131072x20x20, .f32⟩ : BufTy).Contents (Elt F) → (⟨S131072x20x40, .f32⟩ : BufTy).Contents (Elt F) → (⟨S131072x20x40, .f32⟩ : BufTy).Contents (Elt F)),
    binary main_v16 main_arg1 main_v17 ((fun l r => Host.dotGeneral dot_S131072x20x40_S40x30_S131072x20x30_2_0_01_1_n_n none l r) : (⟨S131072x20x40, .f32⟩ : BufTy).Contents (Elt F) → (⟨S40x30, .f32⟩ : BufTy).Contents (Elt F) → (⟨S131072x20x30, .f32⟩ : BufTy).Contents (Elt F)),
    binary main_v1 main_arg2 main_v18 ((fun l r => Host.dotGeneral dot_S131072x20x40_S40x30_S131072x20x30_2_0_01_1_n_n none l r) : (⟨S131072x20x40, .f32⟩ : BufTy).Contents (Elt F) → (⟨S40x30, .f32⟩ : BufTy).Contents (Elt F) → (⟨S131072x20x30, .f32⟩ : BufTy).Contents (Elt F)),
    binary main_v17 main_v18 main_v19 (addf : (⟨S131072x20x30, .f32⟩ : BufTy).Contents (Elt F) → (⟨S131072x20x30, .f32⟩ : BufTy).Contents (Elt F) → (⟨S131072x20x30, .f32⟩ : BufTy).Contents (Elt F)),
    unary main_v15 main_v20 (broadcastInDim S131072x20x30 ![0, 1, 2] bcast_S131072x1x1_S131072x20x30_0_1_2 : (⟨S131072x1x1, .f32⟩ : BufTy).Contents (Elt F) → (⟨S131072x20x30, .f32⟩ : BufTy).Contents (Elt F)),
    binary main_v19 main_v20 main_v21 (Host.divf : (⟨S131072x20x30, .f32⟩ : BufTy).Contents (Elt F) → (⟨S131072x20x30, .f32⟩ : BufTy).Contents (Elt F) → (⟨S131072x20x30, .f32⟩ : BufTy).Contents (Elt F)),
    binary main_v2 main_v21 main_v22 (pair (t := S131072x20x40) 2 concatenates_S131072x20x10_S131072x20x30_S131072x20x40_d2 : (⟨S131072x20x10, .f32⟩ : BufTy).Contents (Elt F) → (⟨S131072x20x30, .f32⟩ : BufTy).Contents (Elt F) → (⟨S131072x20x40, .f32⟩ : BufTy).Contents (Elt F)),
    binary main_v13 main_v22 main_v23 ((fun l r => Host.dotGeneral dot_S131072x20x20_S131072x20x40_S131072x20x40_2_1_1_2_0_0 none l r) : (⟨S131072x20x20, .f32⟩ : BufTy).Contents (Elt F) → (⟨S131072x20x40, .f32⟩ : BufTy).Contents (Elt F) → (⟨S131072x20x40, .f32⟩ : BufTy).Contents (Elt F)),
    binary main_v23 main_arg1 main_v24 ((fun l r => Host.dotGeneral dot_S131072x20x40_S40x30_S131072x20x30_2_0_01_1_n_n none l r) : (⟨S131072x20x40, .f32⟩ : BufTy).Contents (Elt F) → (⟨S40x30, .f32⟩ : BufTy).Contents (Elt F) → (⟨S131072x20x30, .f32⟩ : BufTy).Contents (Elt F)),
    binary main_v22 main_arg2 main_v25 ((fun l r => Host.dotGeneral dot_S131072x20x40_S40x30_S131072x20x30_2_0_01_1_n_n none l r) : (⟨S131072x20x40, .f32⟩ : BufTy).Contents (Elt F) → (⟨S40x30, .f32⟩ : BufTy).Contents (Elt F) → (⟨S131072x20x30, .f32⟩ : BufTy).Contents (Elt F)),
    binary main_v24 main_v25 main_v26 (addf : (⟨S131072x20x30, .f32⟩ : BufTy).Contents (Elt F) → (⟨S131072x20x30, .f32⟩ : BufTy).Contents (Elt F) → (⟨S131072x20x30, .f32⟩ : BufTy).Contents (Elt F)),
    unary main_v15 main_v27 (broadcastInDim S131072x20x30 ![0, 1, 2] bcast_S131072x1x1_S131072x20x30_0_1_2 : (⟨S131072x1x1, .f32⟩ : BufTy).Contents (Elt F) → (⟨S131072x20x30, .f32⟩ : BufTy).Contents (Elt F)),
    binary main_v26 main_v27 main_v28 (Host.divf : (⟨S131072x20x30, .f32⟩ : BufTy).Contents (Elt F) → (⟨S131072x20x30, .f32⟩ : BufTy).Contents (Elt F) → (⟨S131072x20x30, .f32⟩ : BufTy).Contents (Elt F)),
    binary main_v2 main_v28 main_v29 (pair (t := S131072x20x40) 2 concatenates_S131072x20x10_S131072x20x30_S131072x20x40_d2 : (⟨S131072x20x10, .f32⟩ : BufTy).Contents (Elt F) → (⟨S131072x20x30, .f32⟩ : BufTy).Contents (Elt F) → (⟨S131072x20x40, .f32⟩ : BufTy).Contents (Elt F)),
    binary main_v0 main_v29 main_v30 (pair (t := S131072x20x60) 2 concatenates_S131072x20x20_S131072x20x40_S131072x20x60_d2 : (⟨S131072x20x20, .f32⟩ : BufTy).Contents (Elt F) → (⟨S131072x20x40, .f32⟩ : BufTy).Contents (Elt F) → (⟨S131072x20x60, .f32⟩ : BufTy).Contents (Elt F)) ]

set_option maxRecDepth 1024 in
/-- The program is that straight line: the two functions' definitions unfolded at their calls and the records at
    their fields, both sides are one chain of steps once sequencing is reassociated. -/
theorem main_eq (c : Dev nD) : main (F := F) c = seq ops := by
  simp only [main, fn_trace.body, fn_where.body, seq, bind_assoc, pure_bind]
  rfl

/-! ## The run -/

set_option maxRecDepth 8192 in
set_option maxHeartbeats 400000 in
/-- The fold of the 45 operations at the result buffer is the term: each operation's result at its own buffer is its
    function of the contents of its operands' buffers, and at any other buffer what was there. -/
theorem out_eq (V : Valuation τ sig (Elt F)) :
    after ops V (main_v30 : DevRef τ sig)
      = result (V (main_arg0 : DevRef τ sig)) (V (main_arg1 : DevRef τ sig)) (V (main_arg2 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., nullary_bufs_sub .., nullary_bufs_sub .., nullary_bufs_sub ..,
    unary_bufs_sub .., binary_bufs_sub .., binary_bufs_sub .., unary_bufs_sub .., nullary_bufs_sub .., unary_bufs_sub ..,
    binary_bufs_sub .., unary_bufs_sub .., unary_bufs_sub .., binary_bufs_sub ..,
    nullary_bufs_sub .., nullary_bufs_sub .., nullary_bufs_sub .., unary_bufs_sub .., binary_bufs_sub .., binary_bufs_sub ..,
    nullary_bufs_sub .., unary_bufs_sub .., unary_bufs_sub .., ternary_bufs_sub .., nullary_bufs_sub .., binary_bufs_sub ..,
    unary_bufs_sub .., binary_bufs_sub .., binary_bufs_sub .., binary_bufs_sub .., binary_bufs_sub .., unary_bufs_sub ..,
    binary_bufs_sub .., binary_bufs_sub .., binary_bufs_sub .., binary_bufs_sub .., binary_bufs_sub .., binary_bufs_sub ..,
    unary_bufs_sub .., binary_bufs_sub .., binary_bufs_sub .., binary_bufs_sub ..⟩

/-- On the device, for any float values, from any memory with zero counters: every weakly fair execution of the
    program terminates with the result buffer at the term of the arguments' launch contents and the three
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v30).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.LibBatchRows.lean ====
/-
  Two host operations over a batch of matrices read at an index, over variable extents, at the extended reals.

  * A host sum of an [N, A, B] array over its last two axes is, at batch entry b, the initial value plus the double sum
    over the two reduced coordinates of the entries (b, p, q): every matrix of the batch is summed alone.
  * A host product of a [B, M, K] array with one [K, N] matrix is, at (b, p, c), the sum over the shared axis of the
    array's row (b, p) times the matrix's column c: the same matrix multiplies every entry of the batch.
-/
import Idealize.ShloMosaic.PureOps.Ideal.Laws
import Idealize.ShloMosaic.PureOps.Reduce
import Idealize.ShloMosaic.Lib.ValueIdx

noncomputable section

namespace Cert.LibBatchRows

open Idealize.ShloMosaic Idealize.ShloMosaic.ValueIdx
open scoped BigOperators

/-- A host sum of an [N, A, B] array over its last two axes, at b: the initial value plus the double sum over the
    two reduced coordinates. -/
theorem hostSum12_apply {N A B : ℕ} (h : (⟨3, ![N, A, B]⟩ : Shape).ReducesTo [1, 2] ⟨1, ![N]⟩)
    (x : (⟨3, ![N, A, B]⟩ : Shape).Idx → EReal) (init : EReal) (b : Fin N) :
    Ideal.hostReduceAdd h x init (ix1 b) = init + ∑ p : Fin A, ∑ q : Fin B, x (ix3 b p q) := by
  unfold Ideal.hostReduceAdd
  congr 1
  rw [← Fintype.sum_prod_type']
  have hd : ∀ i : (⟨3, ![N, A, B]⟩ : Shape).Idx, (h.drop i 0).val = (i 0).val := fun i => rfl
  have hinv : ∀ i ∈ Finset.univ.filter (fun i : (⟨3, ![N, A, B]⟩ : Shape).Idx => h.drop i = ix1 b),
      ix3 b (i 1) (i 2) = i := by
    intro i hi
    have hi' := (Finset.mem_filter.mp hi).2
    have hb : i 0 = b := Fin.ext ((hd i).symm.trans (congrArg (fun k : (⟨1, ![N]⟩ : Shape).Idx => (k 0).val) hi'))
    rw [← hb]
    exact (eq_ix3 i).symm
  refine Finset.sum_nbij' (fun i => (i 1, i 2)) (fun pq => ix3 b pq.1 pq.2) ?_ ?_ hinv ?_ ?_
  · intro i _; exact Finset.mem_univ _
  · intro pq _
    refine Finset.mem_filter.mpr ⟨Finset.mem_univ _, ?_⟩
    funext a
    match a with
    | ⟨0, _⟩ => exact Fin.ext (hd _)
  · intro pq _; rfl
  · intro i hi; exact congrArg x (hinv i hi).symm

/-- A product of a [B, M, K] array with a [K, N] matrix on the host, read at (b, p, c) at the extended reals: the sum
    over the shared axis. The hypotheses say which coordinates the product's dimension numbers pair up. -/
theorem dotGeneral_rows3_apply {B M K N : ℕ} {φ₁ φ₂ : FTy}
    (d : DotDims ⟨3, ![B, M, K]⟩ ⟨2, ![K, N]⟩ ⟨3, ![B, M, N]⟩)
    (hr : d.contr.rank = 1) (hs : d.contr.size ⟨0, by omega⟩ = K)
    (hl0 : ∀ i q, (d.lhsIdx i q 0).val = (i 0).val) (hl1 : ∀ i q, (d.lhsIdx i q 1).val = (i 1).val)
    (hl2 : ∀ i q, (d.lhsIdx i q 2).val = (q ⟨0, by omega⟩).val)
    (hr0 : ∀ i q, (d.rhsIdx i q 0).val = (q ⟨0, by omega⟩).val) (hr1 : ∀ i q, (d.rhsIdx i q 1).val = (i 2).val)
    (prec : Option ContractPrecision) (lhs : FVec Ideal ⟨3, ![B, M, K]⟩ φ₁) (rhs : FVec Ideal ⟨2, ![K, N]⟩ φ₂)
    (b : Fin B) (p : Fin M) (c : Fin N) :
    Host.dotGeneral d prec lhs rhs (ix3 b p c) = ∑ k : Fin K, lhs (ix3 b p k) * rhs (ix2 k c) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix3 b p c) ((contrEquiv1 d K hr hs).symm k) = ix3 b p k := funext fun a => Fin.ext (by
    match a with
    | ⟨0, _⟩ => exact hl0 _ _
    | ⟨1, _⟩ => exact hl1 _ _
    | ⟨2, _⟩ => exact (hl2 _ _).trans hk)
  have er : d.rhsIdx (ix3 b p c) ((contrEquiv1 d K hr hs).symm k) = ix2 k c := funext fun a => Fin.ext (by
    match a with
    | ⟨0, _⟩ => exact (hr0 _ _).trans hk
    | ⟨1, _⟩ => exact hr1 _ _)
  rw [el, er]

end Cert.LibBatchRows

end
-- ==== Proof.RefSpec.lean ====
/-
  The reference program's term is the specification, index by index.

  Each named part of the term (RefRun) is read at an index of the batch — graph b, row i, column j —, then one round
  and the whole result are matched with the specification's round and result table.
-/
import proofs.«124149_j62792421868061_2_alg».proof.Proof.RefRun
import proofs.«124149_j62792421868061_2_alg».proof.Proof.Spec
import proofs.«124149_j62792421868061_2_alg».proof.Proof.LibBatch
import proofs.«124149_j62792421868061_2_alg».proof.Proof.LibBatchRows
import Idealize.ShloMosaic.Lib.IdealHost
import Idealize.ShloMosaic.PureOps.Reduce

noncomputable section

namespace Cert.ReferenceIdeal.RefSpec

open Cert.ReferenceIdeal Cert.ReferenceIdeal.Gen Cert.ReferenceIdeal.RefRun Idealize.ShloMosaic Idealize.ShloMosaic.ValueIdx
open Cert.MsgPass (oneW zeroW delta offDiag tr gather mix adj feat feat2 graphOut G G_ix3 SX SW)
open scoped BigOperators

/-! ## The slices -/

theorem mat_apply (x : SX.Idx → EReal) (b : Fin 131072) (i j : Fin 20) :
    mat (F := Ideal) x (ix3 b i j) = x (ix3 b i ⟨j.val, by have := j.isLt; omega⟩) := by
  unfold mat
  exact extractStridedSlice_apply _ x _ (ix3 b i j) (ix3 b i ⟨j.val, by have := j.isLt; omega⟩) (fun a => match a with
    | ⟨0, _⟩ => by show b.val = 0 + b.val; omega
    | ⟨1, _⟩ => by show i.val = 0 + i.val; omega
    | ⟨2, _⟩ => by show j.val = 0 + j.val; omega)

theorem val_apply (x : SX.Idx → EReal) (b : Fin 131072) (i : Fin 20) (v : Fin 40) :
    val (F := Ideal) x (ix3 b i v) = x (ix3 b i ⟨20 + v.val, by have := v.isLt; omega⟩) := by
  unfold val
  exact extractStridedSlice_apply _ x _ (ix3 b i v) (ix3 b i ⟨20 + v.val, by have := v.isLt; omega⟩) (fun a => match a with
    | ⟨0, _⟩ => by show b.val = 0 + b.val; omega
    | ⟨1, _⟩ => by show i.val = 0 + i.val; omega
    | ⟨2, _⟩ => rfl)

theorem con_apply (x : SX.Idx → EReal) (b : Fin 131072) (i : Fin 20) (c : Fin 10) :
    con (F := Ideal) x (ix3 b i c) = x (ix3 b i ⟨20 + c.val, by have := c.isLt; omega⟩) := by
  unfold con
  refine (extractStridedSlice_apply _ (val (F := Ideal) x) _ (ix3 b i c) (ix3 b i ⟨c.val, by have := c.isLt; omega⟩) (fun a => match a with
    | ⟨0, _⟩ => by show b.val = 0 + b.val; omega
    | ⟨1, _⟩ => by show i.val = 0 + i.val; omega
    | ⟨2, _⟩ => by show c.val = 0 + c.val; omega)).trans ?_
  exact val_apply x b i ⟨c.val, by have := c.isLt; omega⟩

/-! ## The diagonal test and the mask -/

theorem eye_apply (i j : Fin 20) : eye (F := Ideal) (ix2 i j) = if i = j then 1#1 else 0#1 := by
  have h : eye (F := Ideal) (ix2 i j) = IntOp.cmpi .eq (IntOp.addi (BitVec.ofNat 32 i.val) 0#32) (BitVec.ofNat 32 j.val) := rfl
  rw [h]
  by_cases hij : i = j
  · subst hij
    rw [if_pos rfl]
    show BitVec.ofBool (BitVec.ofNat 32 i.val + 0#32 == BitVec.ofNat 32 i.val) = 1#1
    rw [BitVec.add_zero, beq_self_eq_true]
    rfl
  · rw [if_neg hij]
    have hne : BitVec.ofNat 32 i.val + 0#32 ≠ BitVec.ofNat 32 j.val := by
      intro h'
      apply hij
      have h2 := congrArg BitVec.toNat h'
      rw [BitVec.add_zero, BitVec.toNat_ofNat, BitVec.toNat_ofNat] at h2
      have hi := i.isLt
      have hj := j.isLt
      rw [Nat.mod_eq_of_lt (by omega), Nat.mod_eq_of_lt (by omega)] at h2
      exact Fin.ext h2
    show BitVec.ofBool (BitVec.ofNat 32 i.val + 0#32 == BitVec.ofNat 32 j.val) = 0#1
    rw [beq_eq_false_iff_ne.mpr hne]
    rfl

/-- The mask at (i, j): one off the diagonal, one minus one on it. -/
theorem mask_apply (i j : Fin 20) : mask (F := Ideal) (ix2 i j) = oneW - delta i j := by
  have h : mask (F := Ideal) (ix2 i j) = oneW - (((eye (F := Ideal) (ix2 i j)).toNat : ℝ) : EReal) := rfl
  rw [h, eye_apply]
  unfold delta
  by_cases hij : i = j
  · rw [if_pos hij, if_pos hij]
    norm_num
  · rw [if_neg hij, if_neg hij]
    norm_num

/-- The [20, 20] grid laid over the batch: at (b, i, j) its entry (i, j). -/
theorem grid_apply {α : Type} (m : S20x20.Idx → α) (b : Fin 131072) (i j : Fin 20) :
    broadcastInDim S131072x20x20 ![0, 1, 2] bcast_S1x20x20_S131072x20x20_0_1_2
      (broadcastInDim S1x20x20 ![1, 2] bcast_S20x20_S1x20x20_1_2 m) (ix3 b i j) = m (ix2 i j) := by
  refine (broadcastInDim_apply _ _ _ (ix3 b i j) (ix3 (0 : Fin 1) i j) (fun a => match a with
    | ⟨0, _⟩ => rfl
    | ⟨1, _⟩ => rfl
    | ⟨2, _⟩ => rfl)).trans ?_
  exact broadcastInDim_apply _ _ m (ix3 (0 : Fin 1) i j) (ix2 i j) (fun a => match a with
    | ⟨0, _⟩ => rfl
    | ⟨1, _⟩ => rfl)

/-- The same grid laid over the batch in one step. -/
theorem grid1_apply {α : Type} (m : S20x20.Idx → α) (b : Fin 131072) (i j : Fin 20) :
    broadcastInDim S131072x20x20 ![1, 2] bcast_S20x20_S131072x20x20_1_2 m (ix3 b i j) = m (ix2 i j) :=
  broadcastInDim_apply _ _ m (ix3 b i j) (ix2 i j) (fun a => match a with
    | ⟨0, _⟩ => rfl
    | ⟨1, _⟩ => rfl)

/-- The adjacency without its diagonal, at (b, i, j). -/
theorem mat0_apply (x : SX.Idx → EReal) (b : Fin 131072) (i j : Fin 20) :
    mat0 (F := Ideal) x (ix3 b i j) = offDiag (adj fun a c => x (ix3 b a c)) i j := by
  unfold mat0
  rw [mulf_apply, grid_apply, mat_apply, mask_apply]
  rfl

/-- The adjacency on the diagonal and zero off it, at (b, i, j). -/
theorem diag_apply (x : SX.Idx → EReal) (b : Fin 131072) (i j : Fin 20) :
    diag (F := Ideal) x (ix3 b i j) = if i = j then x (ix3 b i ⟨j.val, by have := j.isLt; omega⟩) else 0 := by
  unfold diag
  rw [select_apply, grid1_apply, eye_apply, mat_apply]
  by_cases hij : i = j
  · rw [if_pos hij, if_pos hij, select_one]
  · rw [if_neg hij, if_neg hij, select_zero]
    exact Ideal.ofBits_zero_f32

/-! ## The trace -/

/-- The trace of graph b's adjacency. -/
theorem tra_apply (x : SX.Idx → EReal) (b : Fin 131072) :
    tra (F := Ideal) x (ix1 b) = tr (adj fun a c => x (ix3 b a c)) := by
  have h : tra (F := Ideal) x (ix1 b)
      = Ideal.hostReduceAdd reducesTo_S131072x20x20_S131072_d1_2 (diag (F := Ideal) x)
          (Ideal.ofBits .f32 0x00000000#32) (ix1 b) := rfl
  rw [h, Cert.LibBatchRows.hostSum12_apply, Ideal.ofBits_zero_f32, zero_add]
  unfold tr
  refine Finset.sum_congr rfl fun p _ => ?_
  rw [Finset.sum_congr rfl fun q _ => diag_apply x b p q, Finset.sum_ite_eq]
  rw [if_pos (Finset.mem_univ _)]
  rfl

/-- The trace spread over a [B, 20, 30] array: at (b, i, c) the trace of graph b. -/
theorem traSpread_apply (x : SX.Idx → EReal) (b : Fin 131072) (i : Fin 20) (c : Fin 30) :
    broadcastInDim S131072x20x30 ![0, 1, 2] bcast_S131072x1x1_S131072x20x30_0_1_2 (tra3 (F := Ideal) x) (ix3 b i c)
      = tr (adj fun a c => x (ix3 b a c)) := by
  unfold tra3
  refine (broadcastInDim_apply _ _ _ (ix3 b i c) (ix3 b (0 : Fin 1) (0 : Fin 1)) (fun a => match a with
    | ⟨0, _⟩ => rfl
    | ⟨1, _⟩ => rfl
    | ⟨2, _⟩ => rfl)).trans ?_
  refine (broadcastInDim_apply _ _ _ (ix3 b (0 : Fin 1) (0 : Fin 1)) (ix1 b) (fun a => match a with
    | ⟨0, _⟩ => rfl)).trans ?_
  exact tra_apply x b

/-! ## The products -/

/-- The batched product of the program, at (b, i, v): the sum over the 20 nodes of graph b. -/
theorem dotB_apply (l : FVec Ideal S131072x20x20 .f32) (r : FVec Ideal S131072x20x40 .f32)
    (b : Fin 131072) (i : Fin 20) (v : Fin 40) :
    Host.dotGeneral dot_S131072x20x20_S131072x20x40_S131072x20x40_2_1_1_2_0_0 none l r (ix3 b i v)
      = ∑ k : Fin 20, l (ix3 b i k) * r (ix3 b k v) :=
  Cert.LibBatch.dotGeneral_batched_apply _ rfl rfl (fun _ _ => rfl) (fun _ _ => rfl) (fun _ _ => rfl)
    (fun _ _ => rfl) (fun _ _ => rfl) (fun _ _ => rfl) none l r b i v

/-- The product with a weight matrix, at (b, i, c): the sum over the 40 features. -/
theorem dotW_apply (l : FVec Ideal S131072x20x40 .f32) (r : FVec Ideal S40x30 .f32)
    (b : Fin 131072) (i : Fin 20) (c : Fin 30) :
    Host.dotGeneral dot_S131072x20x40_S40x30_S131072x20x30_2_0_01_1_n_n none l r (ix3 b i c)
      = ∑ k : Fin 40, l (ix3 b i k) * r (ix2 k c) :=
  Cert.LibBatchRows.dotGeneral_rows3_apply _ rfl rfl (fun _ _ => rfl) (fun _ _ => rfl) (fun _ _ => rfl)
    (fun _ _ => rfl) (fun _ _ => rfl) none l r b i c

/-! ## One round -/

/-- The host's quotient at an index, at the extended reals. -/
theorem hostDivf_apply {s : Shape} {φ : FTy} (a b : FVec Ideal s φ) (i : s.Idx) :
    Host.divf a b i = Ideal.div (a i) (b i) := rfl

/-- The new variable features of one round at (b, i, c), when the previous features of graph b are H. -/
theorem var_apply (x : SX.Idx → EReal) (n s : SW.Idx → EReal) (v : FVec Ideal S131072x20x40 .f32)
    (H : Fin 20 → Fin 40 → EReal) (b : Fin 131072) (hv : ∀ i u, v (ix3 b i u) = H i u) (i : Fin 20) (c : Fin 30) :
    var (F := Ideal) x n s v (ix3 b i c)
      = Ideal.div (mix (fun v c => n (ix2 v c)) (fun v c => s (ix2 v c))
          (gather (offDiag (adj fun a c => x (ix3 b a c))) H) H i c) (tr (adj fun a c => x (ix3 b a c))) := by
  unfold var
  rw [hostDivf_apply, addf_apply, traSpread_apply, dotW_apply, dotW_apply]
  simp only [dotB_apply, mat0_apply, hv]
  rfl

/-- One round at (b, i, u), when the previous features of graph b are H: the specification's round. -/
theorem round_apply (x : SX.Idx → EReal) (n s : SW.Idx → EReal) (v : FVec Ideal S131072x20x40 .f32)
    (H : Fin 20 → Fin 40 → EReal) (b : Fin 131072) (hv : ∀ i u, v (ix3 b i u) = H i u) (i : Fin 20) (u : Fin 40) :
    RefRun.round (F := Ideal) x n s v (ix3 b i u)
      = Cert.MsgPass.round (offDiag (adj fun a c => x (ix3 b a c))) (tr (adj fun a c => x (ix3 b a c)))
          (fun v c => n (ix2 v c)) (fun v c => s (ix2 v c)) (feat fun a c => x (ix3 b a c)) H i u := by
  unfold RefRun.round Cert.LibCatPair.pair Cert.MsgPass.round
  by_cases hu : u.val < 10
  · rw [dif_pos hu]
    refine (concatenate_pair_apply_left (t := S131072x20x40) (s₁ := S131072x20x10) (s₂ := S131072x20x30) 2 _ _ _
      (ix3 b i u) rfl (ix3 b i (⟨u.val, hu⟩ : Fin 10)) (fun a => match a with
      | ⟨0, _⟩ => rfl
      | ⟨1, _⟩ => rfl
      | ⟨2, _⟩ => rfl)).trans ?_
    exact con_apply x b i ⟨u.val, hu⟩
  · rw [dif_neg hu]
    refine (concatenate_pair_apply_right (t := S131072x20x40) (s₁ := S131072x20x10) (s₂ := S131072x20x30) 2 _ _ _
      (ix3 b i u) rfl rfl
      (ix3 b i (⟨u.val - 10, by have := u.isLt; omega⟩ : Fin 30)) (fun a ha => match a, ha with
      | ⟨0, _⟩, _ => rfl
      | ⟨1, _⟩, _ => rfl
      | ⟨2, _⟩, ha => absurd rfl ha) (by show u.val - 10 + 10 = u.val; omega)).trans ?_
    exact var_apply x n s v H b hv i ⟨u.val - 10, by have := u.isLt; omega⟩

/-! ## The whole result -/

/-- The program's term is the specification's whole-array function. -/
theorem result_eq (x : SX.Idx → EReal) (n s : SW.Idx → EReal) : result (F := Ideal) x n s = G x n s := by
  funext idx
  obtain ⟨b, i, j, rfl⟩ : ∃ (b : Fin 131072) (i : Fin 20) (j : Fin 60), idx = ix3 b i j :=
    ⟨idx 0, idx 1, idx 2, eq_ix3 idx⟩
  rw [G_ix3]
  unfold result Cert.LibCatPair.pair graphOut
  by_cases hj : j.val < 20
  · rw [dif_pos hj]
    refine (concatenate_pair_apply_left (t := S131072x20x60) (s₁ := S131072x20x20) (s₂ := S131072x20x40) 2 _ _ _
      (ix3 b i j) rfl (ix3 b i (⟨j.val, hj⟩ : Fin 20)) (fun a => match a with
      | ⟨0, _⟩ => rfl
      | ⟨1, _⟩ => rfl
      | ⟨2, _⟩ => rfl)).trans ?_
    exact mat_apply x b i ⟨j.val, hj⟩
  · rw [dif_neg hj]
    refine (concatenate_pair_apply_right (t := S131072x20x60) (s₁ := S131072x20x20) (s₂ := S131072x20x40) 2 _ _ _
      (ix3 b i j) rfl rfl
      (ix3 b i (⟨j.val - 20, by have := j.isLt; omega⟩ : Fin 40)) (fun a ha => match a, ha with
      | ⟨0, _⟩, _ => rfl
      | ⟨1, _⟩, _ => rfl
      | ⟨2, _⟩, ha => absurd rfl ha) (by show j.val - 20 + 20 = j.val; omega)).trans ?_
    unfold feat2
    exact round_apply x n s _ _ b
      (fun i' u' => round_apply x n s _ _ b (fun i'' u'' => val_apply x b i'' u'') i' u') i
      ⟨j.val - 20, by have := j.isLt; omega⟩

/-! ## The run, against the specification -/

open Idealize.SL.Sem Idealize.ShloMosaic.TcCoe in
/-- At the extended reals, from any memory with zero counters: every weakly fair execution of the reference program
    terminates with the result buffer at the specification's function of the three arguments' launch contents and the
    arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v30)
          = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c => ⟨(h c).1.trans (result_eq _ _ _), (h c).2⟩) (run (F := Ideal) m ρ)

end Cert.ReferenceIdeal.RefSpec

end
-- ==== Proof.lean ====
/-
  Two rounds of message passing on a batch of 131072 small graphs: a tiled kernel against its array-language reference,
  equal as extended reals.

  Each graph is a 20 × 60 table [ M | H₀ ]: a 20 × 20 adjacency matrix and 20 × 40 node features. With M₀ = M ⊙ (1 − I)
  and t = tr M, a round maps features H to [ H₀'s first ten columns | ((M₀ · H) · Wₙ + H · Wₛ) / t ]; the result is
  [ M | round (round H₀) ] (Proof/Spec.lean).

  The kernel takes 1024 graphs per grid point. It forms M₀ · H as twenty products accumulated one at a time from zero,
  lays M₀H and H side by side, flattens the 1024 × 20 rows, multiplies once into the weights Wₙ stacked on Wₛ, and
  divides by t, which it computes as the double sum of M ⊙ I. The reference contracts M₀ with H, multiplies by Wₙ and Wₛ
  separately and adds, and takes t as the sum of the entries selected by the diagonal. On the extended reals these are
  one function: a sum may be regrouped and reordered freely, the sum over the eighty stacked rows splits into the two
  sums over forty, x · 1 = x and x · 0 = 0, and nothing is distributed over a sum, so no finiteness of the inputs is
  used. The kernel's side is Proof/GraphBlock.lean, KernelValue.lean, KernelWeights.lean, KernelCover.lean and
  KernelArray.lean; the reference's is Proof/RefRun.lean and RefSpec.lean.
-/
import proofs.«124149_j62792421868061_2_alg».proof.Defs
import proofs.«124149_j62792421868061_2_alg».proof.Proof.Gen.Kernel
import proofs.«124149_j62792421868061_2_alg».proof.Proof.Gen.Kernel.Frame
import proofs.«124149_j62792421868061_2_alg».proof.Proof.Gen.KernelIdeal
import proofs.«124149_j62792421868061_2_alg».proof.Proof.Gen.KernelIdeal.Frame
import proofs.«124149_j62792421868061_2_alg».proof.Proof.Gen.KernelIdeal.Value
import proofs.«124149_j62792421868061_2_alg».proof.Proof.Gen.ReferenceIdeal
import proofs.«124149_j62792421868061_2_alg».proof.Proof.Gen.Pre_finite_inputs
import proofs.«124149_j62792421868061_2_alg».proof.Proof.KernelArray
import proofs.«124149_j62792421868061_2_alg».proof.Proof.RefSpec
import Idealize.ShloMosaic.Adequacy
import Idealize.ShloMosaic.Init

noncomputable section

namespace Cert.Proof

open Idealize.ShloMosaic Idealize.SL.Sem

/-- Each program runs to the end without a fault and leaves its three argument arrays as they were. -/
theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefSpec.run_spec m ρ)

/-- The idealized kernel is the kernel's own text read on the extended reals: nothing was rewritten. -/
theorem preserves : Cert.preserves_Kernel_KernelIdeal := trivial

/-- From memories that agree on the arguments, both programs end with the result array at the specification's
    function of the three argument arrays. -/
theorem algebraic : Cert.algebraic_KernelIdeal_ReferenceIdeal := by
  intro m ρ m' ρ' _ hagree
  refine ⟨fun c => Cert.MsgPass.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.RefSpec.run_spec m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
